-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x32 .f32) (main_arg1 : FVec F S8192x8192 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x32 : Shape := ⟨2, ![8192, 32]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S16x8192 : Shape := ⟨2, ![16, 8192]⟩
abbrev S128x8192 : Shape := ⟨2, ![128, 8192]⟩
abbrev S8x8192 : Shape := ⟨2, ![8, 8192]⟩
abbrev S128x32 : Shape := ⟨2, ![128, 32]⟩
abbrev S128x1 : Shape := ⟨2, ![128, 1]⟩
abbrev S128 : Shape := ⟨1, ![128]⟩
abbrev S1x8192 : Shape := ⟨2, ![1, 8192]⟩
abbrev S1 : Shape := ⟨1, ![1]⟩
abbrev S1x1 : Shape := ⟨2, ![1, 1]⟩

abbrev nBuf : Space → Nat
  | .hbm => 24
  | .vmem => 7
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S16x8192, .f32⟩
  | .hbm, ⟨7, _⟩ => ⟨S1x8192, .f32⟩
  | .hbm, ⟨8, _⟩ => ⟨S8192, .f32⟩
  | .hbm, ⟨9, _⟩ => ⟨S1x8192, .f32⟩
  | .hbm, ⟨10, _⟩ => ⟨S8192, .f32⟩
  | .hbm, ⟨11, _⟩ => ⟨S8192, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S8192x32, .f32⟩
  | .local _ .vmem, ⟨3, _⟩ => ⟨S8192x1, .f32⟩
  | .local _ .vmem, ⟨4, _⟩ => ⟨S8x8192, .f32⟩
  | .local _ .vmem, ⟨5, _⟩ => ⟨S8x8192, .f32⟩
  | .local _ .vmem, ⟨6, _⟩ => ⟨S8192x32, .bf16⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c128_i32 : BitVec 32 := 128#32
  let v5 : BitVec 32 := Scalar.muli v4 c128_i32
  v5
def k0_off1 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c128_i32 : BitVec 32 := 128#32
  let v5 : BitVec 32 := Scalar.muli v4 c128_i32
  let v6 : BitVec 32 := v5
  let v7 : Index := Scalar.indexCast v6
  let c0 : Index := 0#32
  ![v7.toNat, 0]
def k0_off2 (i : grid0.Coords) : Fin 2 → Nat :=
  let arg0 : BitVec 32 := BitVec.ofNat 32 (i 0).val
  let c32_i32 : BitVec 32 := 32#32
  let v3 : BitVec 32 := Scalar.muli arg0 c32_i32
  let arg1 : BitVec 32 := BitVec.ofNat 32 (i 1).val
  let v4 : BitVec 32 := Scalar.addi v3 arg1
  let c128_i32 : BitVec 32 := 128#32
  let v5 : BitVec 32 := Scalar.muli v4 c128_i32
  let v6 : BitVec 32 := v5
  let v9 : Index := Scalar.indexCast v6
  let c0_1 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x32_S8192_d1 : S8192x32.ReducesTo [1] S8192
  h_S_ : 0 < S_.numel
  bcast_S8192_S8192x1_0 : S8192.BroadcastsInDim S8192x1 (![0] : Fin 1 → Fin S8192x1.rank)
  inb_S8x8192_S8x8192_0_0 : ∀ a, (![0, 0] : Fin 2 → Nat) a + S8x8192.size a ≤ S8x8192.size a
  h_S8x8192 : 0 < S8x8192.numel
  inb_S8192x32_S8192x32_0_0 : ∀ a, (![0, 0] : Fin 2 → Nat) a + S8192x32.size a ≤ S8192x32.size a
  h_S8192x32 : 0 < S8192x32.numel
  bitsLt_bf16_f32 : FTy.bits .bf16 < FTy.bits .f32
  shapeCasts_S8192x32_S8192x32 : S8192x32.ShapeCasts S8192x32
  packedbf16_S8192x32_S8192x32_0_0 : (Rect.unit (s := S8192x32) ![0, 0] S8192x32.size inb_S8192x32_S8192x32_0_0).PackedRows (EltTy.packing .bf16)
  h_S128x32 : 0 < S128x32.numel
  h_S128x1 : 0 < S128x1.numel
  shapeCasts_S128x1_S128x1 : S128x1.ShapeCasts S128x1
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reduces_S128x8192_S8192 : S128x8192.Reduces [0] S8192
  shapeCasts_S8192_S1x8192 : S8192.ShapeCasts S1x8192
  reduces_S128x32_S128 : S128x32.Reduces [1] S128
  reduces_S128x1_S1 : S128x1.Reduces [0] S1
  shapeCasts_S1_S1x1 : S1.ShapeCasts S1x1
  inb_S8x8192_S1x8192_0_0 : ∀ a, (![0, 0] : Fin 2 → Nat) a + S1x8192.size a ≤ S8x8192.size a
  h_S1x8192 : 0 < S1x8192.numel
  shapeCasts_S1x8192_S1x8192 : S1x8192.ShapeCasts S1x8192
  inb_S8x8192_S1x1_4_0 : ∀ a, (![4, 0] : Fin 2 → Nat) a + S1x1.size a ≤ S8x8192.size a
  h_S1x1 : 0 < S1x1.numel
  shapeCasts_S1x1_S1x1 : S1x1.ShapeCasts S1x1
  slices_S16x8192_S1x8192_0_0 : S16x8192.Slices ![0, 0] S1x8192
  shapeCasts_S1x8192_S8192 : S1x8192.ShapeCasts S8192
  slices_S16x8192_S1x8192_8_0 : S16x8192.Slices ![8, 0] S1x8192
  slices_S16x8192_S1x1_4_0 : S16x8192.Slices ![4, 0] S1x1
  shapeCasts_S1x1_S_ : S1x1.ShapeCasts S_
  slices_S16x8192_S1x1_12_0 : S16x8192.Slices ![12, 0] S1x1
  shapeCasts_S8192x1_S8192 : S8192x1.ShapeCasts S8192
  reducesTo_S8192_S_d0 : S8192.ReducesTo [0] S_
  dot_S128x8192_S8192x32_S128x32_1_0_0_1_n_n_wf : DotDims.WF S128x8192 S8192x32 S128x32 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x32.size a ≤ S8192x32.size a
  k0_off2_inb : ∀ i : grid0.Coords, ∀ a, (k0_off2 i) a + S128x1.size a ≤ S8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .f32 = 32 ∨ (Rect.block (s := S8192x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S8192x1.size a
  hwx0_2 : ∀ i : grid0.Coords, EltTy.bits .f32 = 32 ∨ (Rect.block (s := S8192x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8192.size a ≤ S16x8192.size a
  hwx0_3 : ∀ i : grid0.Coords, EltTy.bits .f32 = 32 ∨ (Rect.block (s := S16x8192) S8x8192.size (cc0_transform_3 i) (hinb0_3 i)).WholeWords (EltTy.packing .f32)

variable [Facts₀]

def dot_S128x8192_S8192x32_S128x32_1_0_0_1_n_n : DotDims S128x8192 S8192x32 S128x32 where
  lhsContracting := [1]
  rhsContracting := [0]
  lhsNonContracting := [0]
  rhsNonContracting := [1]
  lhsBatch := []
  rhsBatch := []
  wf := dot_S128x8192_S8192x32_S128x32_1_0_0_1_n_n_wf

abbrev win0_0 : Pipeline.Window sig grid0 :=
  Pipeline.Window.ofSpec (Memref.whole main_arg1) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192x8192 : Shape := ⟨2, ![8192, 8192]⟩
abbrev S_ : Shape := ⟨0, ![]⟩
abbrev S8192 : Shape := ⟨1, ![8192]⟩
abbrev S32x8192 : Shape := ⟨2, ![32, 8192]⟩
abbrev S8192x1 : Shape := ⟨2, ![8192, 1]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x32, .f32⟩
  | .hbm, ⟨3, _⟩ => ⟨S_, .f32⟩
  | .hbm, ⟨4, _⟩ => ⟨S8192, .f32⟩
  | .hbm, ⟨5, _⟩ => ⟨S32x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  reducesTo_S8192x32_S8192_d1 : S8192x32.ReducesTo [1] S8192
  h_S_ : 0 < S_.numel
  transposes_S8192x32_S32x8192_1_0 : S8192x32.Transposes [1, 0] S32x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x32_S32x8192_S8192x8192_1_0_0_1_n_n_wf : DotDims.WF S8192x32 S32x8192 S8192x8192 [1] [0] [0] [1] [] []

variable [Facts₀]

def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.LibOverlays.lean ====
/-
  Reading a buffer after a list of unmasked rectangle writes that need NOT cover it: the result is the prior
  contents with the pieces laid over them, last write on top. (When the pieces cover the buffer the prior contents
  drop out; this is the form for an accumulator that a step only partly rewrites.)
-/
import Idealize.ShloMosaic.Lib.Pipeline.FrameBody

namespace Cert.Lib.Overlays

open Idealize.ShloMosaic

variable {sig : RefSig} {κ : Kind} {sp : Space} {s : Shape} {e : EltTy} {Val : EltTy → Type}

/-- The pieces `L` (last write first) laid over a function `X` of the buffer's index. -/
def overlays (X : s.Idx → Val e) : List (View.Piece Val s e) → s.Idx → Val e
  | [] => X
  | p :: L => p.1.overlay (overlays X L) p.2

theorem overlays_nil (X : s.Idx → Val e) : overlays X ([] : List (View.Piece Val s e)) = X := rfl

theorem overlays_cons (X : s.Idx → Val e) (p : View.Piece Val s e) (L : List (View.Piece Val s e)) :
    overlays X (p :: L) = p.1.overlay (overlays X L) p.2 := rfl

/-- Under the last write: its payload. -/
theorem overlays_cons_emb (X : s.Idx → Val e) (r : Rect s) (w : r.shape.Idx → Val e) (L : List (View.Piece Val s e))
    (x : r.shape.Idx) : overlays X (⟨r, w⟩ :: L) (r.emb x) = w x := r.overlay_emb _ _ x

/-- Off the last write: what the earlier writes left. -/
theorem overlays_cons_of_not_mem (X : s.Idx → Val e) (p : View.Piece Val s e) (L : List (View.Piece Val s e)) {y : s.Idx}
    (h : y ∉ p.1.set) : overlays X (p :: L) y = overlays X L y := p.1.overlay_of_not_mem _ _ h

/-- A read after the writes `L` over contents `f` is `L` laid over the read of `f`, at every index, whatever the view. -/
theorem read_writes_eq_overlays (v : View sig κ sp s e) (f : v.ty.Contents Val) :
    ∀ L : List (View.Piece Val s e), v.read Val (v.writes Val f L) = overlays (v.read Val f) L
  | [] => by rw [View.writes_nil]; rfl
  | p :: L => by
    funext y
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy', read_writes_eq_overlays v f L]
      exact (p.1.overlay_of_not_mem _ _ hy).symm

end Cert.Lib.Overlays
-- ==== Proof.KBodyCases.lean ====
/-
  The kernel body, run once per control case, on any whole staging buffers and at any float instance.

  The grid is 2 x 32. At a point (c, j) the body sees: the 128 x 8192 tile of W whose rows are
  128 (32 c + j) .. +127, all of Y, the column of squared norms, the 8 x 8192 accumulator block of half c,
  and a bf16 copy of Y kept in a scratch buffer.
  * j = 0 (case A): the accumulator block is first filled with zeros and the scratch with the bf16 copy of Y.
  * every point (cases A and B): row 0 of the accumulator gets the tile's column sums added, entry (4, 0) gets
    (sum_r sq_r * rowsum_r) - 2 * (sum_r sum_k y_rk * (W_tile Ybf)_rk) added.
  So one function `step` of (tile, Y, sq, accumulator, scratch) says what the accumulator holds after a point:
  in case B over what the point before left, in case A over the zero block and the fresh copy.
-/
import proofs.«149991_j5892695130791_2_alg».proof.Proof.Gen.Kernel.Frame
import proofs.«149991_j5892695130791_2_alg».proof.Proof.Gen.Kernel.Skeleton
import Idealize.ShloMosaic.Lib.Exec
import Idealize.ShloMosaic.Lib.Pipeline.Value
import proofs.«149991_j5892695130791_2_alg».proof.Proof.LibOverlays

set_option maxRecDepth 16384

noncomputable section

namespace Cert.Kernel.Hand

open Cert.Kernel Cert.Kernel.Gen Cert.Lib.Overlays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "the second grid coordinate is 0". -/
abbrev isFirst (i : grid0.Coords) : Prop := (Scalar.cmpi .ne (Scalar.extui (Scalar.cmpi .eq (BitVec.ofNat 32 (i 1).val) 0#32)) 0#32) = 1#1

/-- It holds exactly at the points 0 and 32 of the 64. -/
theorem isFirst_iff : ∀ t : Fin cfg0.N, isFirst (grid0.coords t) ↔ t.val % 32 = 0 :=
  (by decide +kernel : ∀ t : Fin grid0.N, isFirst (grid0.coords t) ↔ t.val % 32 = 0)

/-! ## The rectangles the body loads and stores through -/

/-- The whole tile. -/
abbrev RW : Rect S128x8192 := Rect.unit (s := S128x8192) ![0, 0] S128x8192.size Facts₀.inb_S128x8192_S128x8192_0_0
/-- All of Y (and of its bf16 copy). -/
abbrev RY : Rect S8192x32 := Rect.unit (s := S8192x32) ![0, 0] S8192x32.size Facts₀.inb_S8192x32_S8192x32_0_0
/-- The whole accumulator block. -/
abbrev RZ : Rect S8x8192 := Rect.unit (s := S8x8192) ![0, 0] S8x8192.size Facts₀.inb_S8x8192_S8x8192_0_0
/-- Row 0 of the accumulator block. -/
abbrev R0 : Rect S8x8192 := Rect.unit (s := S8x8192) ![0, 0] S1x8192.size Facts₀.inb_S8x8192_S1x8192_0_0
/-- Entry (4, 0) of the accumulator block. -/
abbrev R40 : Rect S8x8192 := Rect.unit (s := S8x8192) ![4, 0] S1x1.size Facts₀.inb_S8x8192_S1x1_4_0
/-- The tile's 128 rows of Y. -/
abbrev RYt (i : grid0.Coords) : Rect S8192x32 := Rect.unit (s := S8192x32) (k0_off1 i) S128x32.size (Facts₀.k0_off1_inb i)
/-- The tile's 128 entries of the squared norms. -/
abbrev RSt (i : grid0.Coords) : Rect S8192x1 := Rect.unit (s := S8192x1) (k0_off2 i) S128x1.size (Facts₀.k0_off2_inb i)

/-! ## One point's effect on the accumulator block -/

/-- What a point stores, last store first, given the accumulator `xo` and the scratch `ys` it finds: entry (4, 0) and row 0,
    each the old value plus the tile's contribution. -/
def stepPieces (i : grid0.Coords) (x0 : Vec F S128x8192 .f32) (x1 : Vec F S8192x32 .f32) (x2 : Vec F S8192x1 .f32)
    (xo : Vec F S8x8192 .f32) (ys : Vec F S8192x32 .bf16) : List (View.Piece (Elt F) S8x8192 .f32) :=
  [⟨R40, k0_pay1 (k0_pay4 (View.ld x1 (RYt i)) (View.ld x0 RW) (View.ld ys RY)) (k0_pay5 (View.ld x2 (RSt i)) (View.ld x0 RW)) (k0_pay7 (View.ld xo R40))⟩,
   ⟨R0, k0_pay6 (View.ld x0 RW) (View.ld xo R0)⟩]

/-- The accumulator block after a point that found it at `xo` and the scratch at `ys`. -/
def step (i : grid0.Coords) (x0 : Vec F S128x8192 .f32) (x1 : Vec F S8192x32 .f32) (x2 : Vec F S8192x1 .f32)
    (xo : Vec F S8x8192 .f32) (ys : Vec F S8192x32 .bf16) : Vec F S8x8192 .f32 :=
  overlays xo (stepPieces i x0 x1 x2 xo ys)

/-- The zero block a first point starts from. -/
def zeroBlock : Vec F S8x8192 .f32 := View.canon [(⟨RZ, k0_pay2 (F := F)⟩ : View.Piece (Elt F) S8x8192 .f32)]

/-- The bf16 copy of Y a first point puts in the scratch. -/
def freshCopy (x1 : Vec F S8192x32 .f32) : Vec F S8192x32 .bf16 :=
  View.canon [(⟨RY, k0_pay3 (View.ld x1 RY)⟩ : View.Piece (Elt F) S8192x32 .bf16)]

/-! ## The two runs -/
set_option maxHeartbeats 1000000 in
/-- Case B (j ≠ 0): the accumulator block holds `xo`, the scratch `ys`; the body leaves the accumulator at `xo` with the
    pieces `L` written over it and everything else as it was. -/
def runB (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    { L : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare ys
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo) L)
                ∗ owns (c : Thread nD τ) arg6 fullShare ys) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexists _; isplitr; · ipureintro; exact harg6.read_unread _
    iexact HS

set_option maxHeartbeats 1000000 in
/-- Case A (j = 0): the accumulator block and the scratch hold anything; the body leaves the accumulator with the pieces
    `L5` written (the first of them the zero fill of the whole block) and the scratch with the pieces `L6` (the whole copy). -/
def runA (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    Σ' (L5 : List (View.Piece (Elt F) S8x8192 .f32)) (L6 : List (View.Piece (Elt F) S8192x32 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What the runs found, spelt out -/

theorem runB_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    (runB c i arg2 harg2 arg3 harg3 arg4 harg4 arg5 harg5 arg6 harg6 hc x0 x1 x2 xo ys).1 = stepPieces i x0 x1 x2 xo ys := by
  unfold runB stepPieces; dsimp only
  sl_unfold_run_names
  simp only [View.readAt_eq_ld, Memref.IsWhole.read_unread]

/-- Case B leaves the accumulator at `step` of what it found. -/
theorem runB_leaves (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    arg5.view.read (Elt F) (arg5.view.writes (Elt F) (harg5.unread xo) (runB c i arg2 harg2 arg3 harg3 arg4 harg4 arg5 harg5 arg6 harg6 hc x0 x1 x2 xo ys).1)
      = step i x0 x1 x2 xo ys := by
  rw [read_writes_eq_overlays, harg5.read_unread, runB_pieces]; rfl

/-! ## Case A, spelt out -/

/-- Entry (4, 0) is not in row 0. -/
theorem r40_not_mem_r0 (j : (R40.toLoadRect).shape.Idx) : (R40.toLoadRect).idx j ∉ R0.set := by
  intro h
  have h0 := (Rect.mem_set_unit.mp h) 0
  have e : (((R40.toLoadRect).idx j) 0 : Nat) = 4 + 1 * (j 0 : Nat) := rfl
  have hs : S1x8192.size 0 = 1 := rfl
  have ho : (![0, 0] : Fin 2 → Nat) 0 = 0 := rfl
  omega

/-- A load of entry (4, 0) after a store into row 0 sees what was there before that store. -/
theorem canon_r0_at_r40 (w : R0.shape.Idx → Elt F .f32) (L : List (View.Piece (Elt F) S8x8192 .f32)) :
    (fun j => View.canon ((⟨R0, w⟩ : View.Piece (Elt F) S8x8192 .f32) :: L) ((R40.toLoadRect).idx j))
      = fun j => View.canon L ((R40.toLoadRect).idx j) :=
  funext fun j => View.canon_cons_of_not_mem _ L (r40_not_mem_r0 j)

theorem runA_scratch_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    (runA c i arg2 harg2 arg3 harg3 arg4 harg4 arg5 harg5 arg6 harg6 hc x0 x1 x2).2.1 = [(⟨RY, k0_pay3 (View.ld x1 RY)⟩ : View.Piece (Elt F) S8192x32 .bf16)] := by
  unfold runA; dsimp only
  sl_unfold_run_names
  simp only [View.readAt_eq_ld, Memref.IsWhole.read_unread]

theorem runA_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    (runA c i arg2 harg2 arg3 harg3 arg4 harg4 arg5 harg5 arg6 harg6 hc x0 x1 x2).1
      = stepPieces i x0 x1 x2 zeroBlock (freshCopy x1) ++ [(⟨RZ, k0_pay2 (F := F)⟩ : View.Piece (Elt F) S8x8192 .f32)] := by
  unfold runA stepPieces zeroBlock freshCopy; dsimp only
  sl_unfold_run_names
  simp only [View.readAt_eq_ld, Memref.IsWhole.read_unread, View.readCov_eq_canon', canon_r0_at_r40]
  rfl

/-- The offsets (0, 0), however spelt, are zero on every axis. -/
theorem hz2 : (![0, 0] : Fin 2 → Nat) = fun _ => 0 := by funext a; fin_cases a <;> rfl

/-- Case A leaves the accumulator at `step` of the zero block and the fresh copy: its stores cover the block, the zero fill first. -/
theorem runA_leaves (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    View.canon (runA c i arg2 harg2 arg3 harg3 arg4 harg4 arg5 harg5 arg6 harg6 hc x0 x1 x2).1 = step i x0 x1 x2 zeroBlock (freshCopy x1) := by
  rw [runA_pieces]; rfl

theorem runA_cover (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) (y : S8x8192.Idx) :
    ∃ p ∈ (runA c i arg2 harg2 arg3 harg3 arg4 harg4 arg5 harg5 arg6 harg6 hc x0 x1 x2).1, y ∈ p.1.set := by
  rw [runA_pieces]
  exact ⟨⟨RZ, k0_pay2 (F := F)⟩, List.mem_append_right _ (List.mem_singleton_self _), View.mem_set_unit_zero hz2 Facts₀.inb_S8x8192_S8x8192_0_0 y⟩

/-- Case A leaves the scratch at the fresh copy. -/
theorem runA_scratch (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    View.canon (runA c i arg2 harg2 arg3 harg3 arg4 harg4 arg5 harg5 arg6 harg6 hc x0 x1 x2).2.1 = freshCopy x1 := by
  rw [runA_scratch_pieces]; rfl

theorem runA_scratch_cover (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) (y : S8192x32.Idx) :
    ∃ p ∈ (runA c i arg2 harg2 arg3 harg3 arg4 harg4 arg5 harg5 arg6 harg6 hc x0 x1 x2).2.1, y ∈ p.1.set := by
  rw [runA_scratch_pieces]
  exact ⟨_, List.mem_singleton_self _, View.mem_set_unit_zero hz2 Facts₀.inb_S8192x32_S8192x32_0_0 y⟩

end Cert.Kernel.Hand

end
-- ==== Proof.KBodyData.lean ====
/-
  The frame run of the kernel: what the accumulator block and the scratch hold point by point, the proof data of
  the pipeline, the body's obligation at every point, and the run of the whole program.

  After point t the accumulator block of half c = t / 32 holds `step` applied to what the point before left,
  except at the first point of a half (t = 0, 32), where it is `step` applied to the zero block; the scratch holds
  the bf16 copy of Y from the first point on. The block is written back to the 16 x 8192 result after the last
  point of each half (t = 31, 63).
-/
import proofs.«149991_j5892695130791_2_alg».proof.Proof.KBodyCases

set_option maxRecDepth 16384

noncomputable section

namespace Cert.Kernel.Hand

open Cert.Kernel Cert.Kernel.Gen Cert.Lib.Overlays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

abbrev ms0 (t : Fin cfg0.N) : Memref sig .tc .vmem S128x8192 .f32 := win0_0.stage (cfg0.slots t 0)
abbrev ms1 (t : Fin cfg0.N) : Memref sig .tc .vmem S8192x32 .f32 := win0_1.stage (cfg0.slots t 1)
abbrev ms2 (t : Fin cfg0.N) : Memref sig .tc .vmem S8192x1 .f32 := win0_2.stage (cfg0.slots t 2)
abbrev ms3 (t : Fin cfg0.N) : Memref sig .tc .vmem S8x8192 .f32 := win0_3.stage (cfg0.slots t 3)
/-- The scratch buffer: a whole buffer of the kernel's own, passed beside the windows. -/
abbrev scM : Memref sig .tc .vmem S8192x32 .bf16 := Memref.whole cc0_scratch0

/-- What the region's invariant holds for the body: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator block and the scratch, point by point -/

/-- After point `n`: (the accumulator block, the scratch). -/
def stateAt (c : Dev nD) : (n : ℕ) → n < cfg0.N → Vec F S8x8192 .f32 × Vec F S8192x32 .bf16
  | 0, hn =>
    (step (grid0.coords ⟨0, hn⟩) (iblk m c 0 ⟨0, hn⟩) (iblk m c 1 ⟨0, hn⟩) (iblk m c 2 ⟨0, hn⟩) zeroBlock (freshCopy (iblk m c 1 ⟨0, hn⟩)),
      freshCopy (iblk m c 1 ⟨0, hn⟩))
  | n + 1, hn =>
    if (n + 1) % 32 = 0 then
      (step (grid0.coords ⟨n + 1, hn⟩) (iblk m c 0 ⟨n + 1, hn⟩) (iblk m c 1 ⟨n + 1, hn⟩) (iblk m c 2 ⟨n + 1, hn⟩) zeroBlock (freshCopy (iblk m c 1 ⟨n + 1, hn⟩)),
        freshCopy (iblk m c 1 ⟨n + 1, hn⟩))
    else
      (step (grid0.coords ⟨n + 1, hn⟩) (iblk m c 0 ⟨n + 1, hn⟩) (iblk m c 1 ⟨n + 1, hn⟩) (iblk m c 2 ⟨n + 1, hn⟩)
          (stateAt c n (Nat.lt_of_succ_lt hn)).1 (stateAt c n (Nat.lt_of_succ_lt hn)).2,
        (stateAt c n (Nat.lt_of_succ_lt hn)).2)

/-- At the first point of a half: from the zero block and the fresh copy. -/
theorem stateAt_first (c : Dev nD) (t : Fin cfg0.N) (h : t.val % 32 = 0) :
    stateAt m c t.val t.isLt
      = (step (grid0.coords t) (iblk m c 0 t) (iblk m c 1 t) (iblk m c 2 t) zeroBlock (freshCopy (iblk m c 1 t)), freshCopy (iblk m c 1 t)) := by
  obtain ⟨n, hn⟩ := t
  cases n with
  | zero => rfl
  | succ n => exact (if_pos h).trans rfl

/-- At a later point: from what the point before left. -/
theorem stateAt_later (c : Dev nD) (t : Fin cfg0.N) (h : ¬t.val % 32 = 0) :
    stateAt m c t.val t.isLt
      = (step (grid0.coords t) (iblk m c 0 t) (iblk m c 1 t) (iblk m c 2 t)
            (stateAt m c (t.val - 1) (Nat.lt_of_le_of_lt (Nat.sub_le _ _) t.isLt)).1 (stateAt m c (t.val - 1) (Nat.lt_of_le_of_lt (Nat.sub_le _ _) t.isLt)).2,
          (stateAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-- The invariant before position `n`: before the first point the region's own (the scratch at anything); afterwards the
    scratch at what the point before left in it. -/
def PhiS (c : Dev nD) : (n : ℕ) → n ≤ cfg0.N → sProp 𝕄
  | 0, _ => Pipeline.ΦA spec0 c
  | n + 1, hn => iprop(iprop(owns (c : Thread nD τ) scM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((stateAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and the
    accumulator block at `stateAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stateAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point that is not the first of its half the accumulator's buffer holds what the point before left: the point is
    not the first, the block was not written back between, the window is live and uncut. -/
theorem before3_later (c : Dev nD) (t : Fin cfg0.N) (h0 : ¬t.val % 32 = 0) (d) :
    (dats m 0 c).before 3 t d = (stateAt m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4000000 in
/-- The body at any point. At the first point of a half (case A) it takes the accumulator's buffer and the scratch at
    anything and leaves them at `step` of the zero block and at the fresh copy; at a later point (case B) it finds them at
    what the point before left and leaves the accumulator at `step` of that, the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  have hN : t.val < 64 := lt_of_lt_of_eq t.isLt (show cfg0.N = 64 from N_0)
  by_cases h0 : t.val % 32 = 0
  · rw [stateAt_first m c t h0]; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((isFirst_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%f5, H3⟩, ⟨%f6, HS⟩⟩
      isplitl [HS Hg]
      · isplitl [HS]
        · unfold owns; iexists _; isplitr
          swap; · iexact HS
          ipureintro; exact (View.read_writes_eq_canon _ _ _ (runA_scratch_cover c _ _ _ _ _ _ _ _ _ _ _ _ _ _ _)).trans (runA_scratch c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (runA_cover c _ _ _ _ _ _ _ _ _ _ _ _ _ _ _)).trans (runA_leaves c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((isFirst_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%f5, H3⟩, ⟨%f6, HS⟩⟩
      isplitl [HS Hg]
      · isplitl [HS]
        · unfold owns; iexists _; isplitr
          swap; · iexact HS
          ipureintro; exact (View.read_writes_eq_canon _ _ _ (runA_scratch_cover c _ _ _ _ _ _ _ _ _ _ _ _ _ _ _)).trans (runA_scratch c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (runA_cover c _ _ _ _ _ _ _ _ _ _ _ _ _ _ _)).trans (runA_leaves c _ _ _ _ _ _ _ _ _ _ _ _ _ _ _)
  · rw [stateAt_later m c t h0]; dsimp only
    have hz : t.val ≠ 0 := fun e => h0 (by rw [e])
    rw [PhiS_castSucc m c t, PhiS_pos m c _ _ hz]
    simp only [before3_later m c t h0]
    iintro ⟨⟨HS, Hg⟩, Ho, ⟨%d0, H0⟩, ⟨%d1, H1⟩, ⟨%d2, H2⟩, ⟨%d3, H3⟩⟩
    iapply ((runB c (grid0.coords t) _ _ _ _ _ _ _ _ _ _ (fun h => h0 ((isFirst_iff t).mp h)) (iblk m c 0 t) (iblk m c 1 t) (iblk m c 2 t) _ _).2 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact runB_leaves c _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- For any values, from any memory with zero counters: every weakly fair execution of the program terminates, and every
    final state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs (terminates, no fault) and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyCases.lean ====
/-
  The kernel body, run once per control case, on any whole staging buffers and at any float instance.

  The grid is 2 x 32. At a point (c, j) the body sees: the 128 x 8192 tile of W whose rows are
  128 (32 c + j) .. +127, all of Y, the column of squared norms, the 8 x 8192 accumulator block of half c,
  and a bf16 copy of Y kept in a scratch buffer.
  * j = 0 (case A): the accumulator block is first filled with zeros and the scratch with the bf16 copy of Y.
  * every point (cases A and B): row 0 of the accumulator gets the tile's column sums added, entry (4, 0) gets
    (sum_r sq_r * rowsum_r) - 2 * (sum_r sum_k y_rk * (W_tile Ybf)_rk) added.
  So one function `step` of (tile, Y, sq, accumulator, scratch) says what the accumulator holds after a point:
  in case B over what the point before left, in case A over the zero block and the fresh copy.
-/
import proofs.«149991_j5892695130791_2_alg».proof.Proof.Gen.KernelIdeal.Frame
import proofs.«149991_j5892695130791_2_alg».proof.Proof.Gen.KernelIdeal.Skeleton
import Idealize.ShloMosaic.Lib.Exec
import Idealize.ShloMosaic.Lib.Pipeline.Value
import proofs.«149991_j5892695130791_2_alg».proof.Proof.LibOverlays

set_option maxRecDepth 16384

noncomputable section

namespace Cert.KernelIdeal.Hand

open Cert.KernelIdeal Cert.KernelIdeal.Gen Cert.Lib.Overlays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "the second grid coordinate is 0". -/
abbrev isFirst (i : grid0.Coords) : Prop := (Scalar.cmpi .ne (Scalar.extui (Scalar.cmpi .eq (BitVec.ofNat 32 (i 1).val) 0#32)) 0#32) = 1#1

/-- It holds exactly at the points 0 and 32 of the 64. -/
theorem isFirst_iff : ∀ t : Fin cfg0.N, isFirst (grid0.coords t) ↔ t.val % 32 = 0 :=
  (by decide +kernel : ∀ t : Fin grid0.N, isFirst (grid0.coords t) ↔ t.val % 32 = 0)

/-! ## The rectangles the body loads and stores through -/

/-- The whole tile. -/
abbrev RW : Rect S128x8192 := Rect.unit (s := S128x8192) ![0, 0] S128x8192.size Facts₀.inb_S128x8192_S128x8192_0_0
/-- All of Y (and of its bf16 copy). -/
abbrev RY : Rect S8192x32 := Rect.unit (s := S8192x32) ![0, 0] S8192x32.size Facts₀.inb_S8192x32_S8192x32_0_0
/-- The whole accumulator block. -/
abbrev RZ : Rect S8x8192 := Rect.unit (s := S8x8192) ![0, 0] S8x8192.size Facts₀.inb_S8x8192_S8x8192_0_0
/-- Row 0 of the accumulator block. -/
abbrev R0 : Rect S8x8192 := Rect.unit (s := S8x8192) ![0, 0] S1x8192.size Facts₀.inb_S8x8192_S1x8192_0_0
/-- Entry (4, 0) of the accumulator block. -/
abbrev R40 : Rect S8x8192 := Rect.unit (s := S8x8192) ![4, 0] S1x1.size Facts₀.inb_S8x8192_S1x1_4_0
/-- The tile's 128 rows of Y. -/
abbrev RYt (i : grid0.Coords) : Rect S8192x32 := Rect.unit (s := S8192x32) (k0_off1 i) S128x32.size (Facts₀.k0_off1_inb i)
/-- The tile's 128 entries of the squared norms. -/
abbrev RSt (i : grid0.Coords) : Rect S8192x1 := Rect.unit (s := S8192x1) (k0_off2 i) S128x1.size (Facts₀.k0_off2_inb i)

/-! ## One point's effect on the accumulator block -/

/-- What a point stores, last store first, given the accumulator `xo` and the scratch `ys` it finds: entry (4, 0) and row 0,
    each the old value plus the tile's contribution. -/
def stepPieces (i : grid0.Coords) (x0 : Vec F S128x8192 .f32) (x1 : Vec F S8192x32 .f32) (x2 : Vec F S8192x1 .f32)
    (xo : Vec F S8x8192 .f32) (ys : Vec F S8192x32 .bf16) : List (View.Piece (Elt F) S8x8192 .f32) :=
  [⟨R40, k0_pay1 (k0_pay4 (View.ld x1 (RYt i)) (View.ld x0 RW) (View.ld ys RY)) (k0_pay5 (View.ld x2 (RSt i)) (View.ld x0 RW)) (k0_pay7 (View.ld xo R40))⟩,
   ⟨R0, k0_pay6 (View.ld x0 RW) (View.ld xo R0)⟩]

/-- The accumulator block after a point that found it at `xo` and the scratch at `ys`. -/
def step (i : grid0.Coords) (x0 : Vec F S128x8192 .f32) (x1 : Vec F S8192x32 .f32) (x2 : Vec F S8192x1 .f32)
    (xo : Vec F S8x8192 .f32) (ys : Vec F S8192x32 .bf16) : Vec F S8x8192 .f32 :=
  overlays xo (stepPieces i x0 x1 x2 xo ys)

/-- The zero block a first point starts from. -/
def zeroBlock : Vec F S8x8192 .f32 := View.canon [(⟨RZ, k0_pay2 (F := F)⟩ : View.Piece (Elt F) S8x8192 .f32)]

/-- The bf16 copy of Y a first point puts in the scratch. -/
def freshCopy (x1 : Vec F S8192x32 .f32) : Vec F S8192x32 .bf16 :=
  View.canon [(⟨RY, k0_pay3 (View.ld x1 RY)⟩ : View.Piece (Elt F) S8192x32 .bf16)]

/-! ## The two runs -/
set_option maxHeartbeats 1000000 in
/-- Case B (j ≠ 0): the accumulator block holds `xo`, the scratch `ys`; the body leaves the accumulator at `xo` with the
    pieces `L` written over it and everything else as it was. -/
def runB (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    { L : List (View.Piece (Elt F) S8x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare ys
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) (harg5.unread xo) L)
                ∗ owns (c : Thread nD τ) arg6 fullShare ys) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexact H3
    iexists _; isplitr; · ipureintro; exact harg6.read_unread _
    iexact HS

set_option maxHeartbeats 1000000 in
/-- Case A (j = 0): the accumulator block and the scratch hold anything; the body leaves the accumulator with the pieces
    `L5` written (the first of them the zero fill of the whole block) and the scratch with the pieces `L6` (the whole copy). -/
def runA (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    Σ' (L5 : List (View.Piece (Elt F) S8x8192 .f32)) (L6 : List (View.Piece (Elt F) S8192x32 .bf16)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__kernel i arg2 harg2 arg3 harg3 arg4 harg4 arg5 harg5 arg6 harg6) K := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

/-! ## What the runs found, spelt out -/

theorem runB_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    (runB c i arg2 harg2 arg3 harg3 arg4 harg4 arg5 harg5 arg6 harg6 hc x0 x1 x2 xo ys).1 = stepPieces i x0 x1 x2 xo ys := by
  unfold runB stepPieces; dsimp only
  sl_unfold_run_names
  simp only [View.readAt_eq_ld, Memref.IsWhole.read_unread]

/-- Case B leaves the accumulator at `step` of what it found. -/
theorem runB_leaves (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : ¬isFirst i)
    (x0 : Vec F S128x8192 .f32) (x1 : Vec F S8192x32 .f32) (x2 : Vec F S8192x1 .f32) (xo : Vec F S8x8192 .f32) (ys : Vec F S8192x32 .bf16) :
    arg5.view.read (Elt F) (arg5.view.writes (Elt F) (harg5.unread xo) (runB c i arg2 harg2 arg3 harg3 arg4 harg4 arg5 harg5 arg6 harg6 hc x0 x1 x2 xo ys).1)
      = step i x0 x1 x2 xo ys := by
  rw [read_writes_eq_overlays, harg5.read_unread, runB_pieces]; rfl

/-! ## Case A, spelt out -/

/-- Entry (4, 0) is not in row 0. -/
theorem r40_not_mem_r0 (j : (R40.toLoadRect).shape.Idx) : (R40.toLoadRect).idx j ∉ R0.set := by
  intro h
  have h0 := (Rect.mem_set_unit.mp h) 0
  have e : (((R40.toLoadRect).idx j) 0 : Nat) = 4 + 1 * (j 0 : Nat) := rfl
  have hs : S1x8192.size 0 = 1 := rfl
  have ho : (![0, 0] : Fin 2 → Nat) 0 = 0 := rfl
  omega

/-- A load of entry (4, 0) after a store into row 0 sees what was there before that store. -/
theorem canon_r0_at_r40 (w : R0.shape.Idx → Elt F .f32) (L : List (View.Piece (Elt F) S8x8192 .f32)) :
    (fun j => View.canon ((⟨R0, w⟩ : View.Piece (Elt F) S8x8192 .f32) :: L) ((R40.toLoadRect).idx j))
      = fun j => View.canon L ((R40.toLoadRect).idx j) :=
  funext fun j => View.canon_cons_of_not_mem _ L (r40_not_mem_r0 j)

theorem runA_scratch_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    (runA c i arg2 harg2 arg3 harg3 arg4 harg4 arg5 harg5 arg6 harg6 hc x0 x1 x2).2.1 = [(⟨RY, k0_pay3 (View.ld x1 RY)⟩ : View.Piece (Elt F) S8192x32 .bf16)] := by
  unfold runA; dsimp only
  sl_unfold_run_names
  simp only [View.readAt_eq_ld, Memref.IsWhole.read_unread]

theorem runA_pieces (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    (runA c i arg2 harg2 arg3 harg3 arg4 harg4 arg5 harg5 arg6 harg6 hc x0 x1 x2).1
      = stepPieces i x0 x1 x2 zeroBlock (freshCopy x1) ++ [(⟨RZ, k0_pay2 (F := F)⟩ : View.Piece (Elt F) S8x8192 .f32)] := by
  unfold runA stepPieces zeroBlock freshCopy; dsimp only
  sl_unfold_run_names
  simp only [View.readAt_eq_ld, Memref.IsWhole.read_unread, View.readCov_eq_canon', canon_r0_at_r40]
  rfl

/-- The offsets (0, 0), however spelt, are zero on every axis. -/
theorem hz2 : (![0, 0] : Fin 2 → Nat) = fun _ => 0 := by funext a; fin_cases a <;> rfl

/-- Case A leaves the accumulator at `step` of the zero block and the fresh copy: its stores cover the block, the zero fill first. -/
theorem runA_leaves (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    View.canon (runA c i arg2 harg2 arg3 harg3 arg4 harg4 arg5 harg5 arg6 harg6 hc x0 x1 x2).1 = step i x0 x1 x2 zeroBlock (freshCopy x1) := by
  rw [runA_pieces]; rfl

theorem runA_cover (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) (y : S8x8192.Idx) :
    ∃ p ∈ (runA c i arg2 harg2 arg3 harg3 arg4 harg4 arg5 harg5 arg6 harg6 hc x0 x1 x2).1, y ∈ p.1.set := by
  rw [runA_pieces]
  exact ⟨⟨RZ, k0_pay2 (F := F)⟩, List.mem_append_right _ (List.mem_singleton_self _), View.mem_set_unit_zero hz2 Facts₀.inb_S8x8192_S8x8192_0_0 y⟩

/-- Case A leaves the scratch at the fresh copy. -/
theorem runA_scratch (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) :
    View.canon (runA c i arg2 harg2 arg3 harg3 arg4 harg4 arg5 harg5 arg6 harg6 hc x0 x1 x2).2.1 = freshCopy x1 := by
  rw [runA_scratch_pieces]; rfl

theorem runA_scratch_cover (c : Dev nD) (i : grid0.Coords) (arg2 : Memref sig .tc .vmem S128x8192 .f32) (harg2 : arg2.IsWhole) (arg3 : Memref sig .tc .vmem S8192x32 .f32) (harg3 : arg3.IsWhole) (arg4 : Memref sig .tc .vmem S8192x1 .f32) (harg4 : arg4.IsWhole) (arg5 : Memref sig .tc .vmem S8x8192 .f32) (harg5 : arg5.IsWhole) (arg6 : Memref sig .tc .vmem S8192x32 .bf16) (harg6 : arg6.IsWhole) (hc : isFirst i)
    (x0 : Vec F S128x8192 .f32) (x1 : Vec F S8192x32 .f32) (x2 : Vec F S8192x1 .f32) (y : S8192x32.Idx) :
    ∃ p ∈ (runA c i arg2 harg2 arg3 harg3 arg4 harg4 arg5 harg5 arg6 harg6 hc x0 x1 x2).2.1, y ∈ p.1.set := by
  rw [runA_scratch_pieces]
  exact ⟨_, List.mem_singleton_self _, View.mem_set_unit_zero hz2 Facts₀.inb_S8192x32_S8192x32_0_0 y⟩

end Cert.KernelIdeal.Hand

end
-- ==== Proof.BodyData.lean ====
/-
  The frame run of the kernel: what the accumulator block and the scratch hold point by point, the proof data of
  the pipeline, the body's obligation at every point, and the run of the whole program.

  After point t the accumulator block of half c = t / 32 holds `step` applied to what the point before left,
  except at the first point of a half (t = 0, 32), where it is `step` applied to the zero block; the scratch holds
  the bf16 copy of Y from the first point on. The block is written back to the 16 x 8192 result after the last
  point of each half (t = 31, 63).
-/
import proofs.«149991_j5892695130791_2_alg».proof.Proof.BodyCases

set_option maxRecDepth 16384

noncomputable section

namespace Cert.KernelIdeal.Hand

open Cert.KernelIdeal Cert.KernelIdeal.Gen Cert.Lib.Overlays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

abbrev ms0 (t : Fin cfg0.N) : Memref sig .tc .vmem S128x8192 .f32 := win0_0.stage (cfg0.slots t 0)
abbrev ms1 (t : Fin cfg0.N) : Memref sig .tc .vmem S8192x32 .f32 := win0_1.stage (cfg0.slots t 1)
abbrev ms2 (t : Fin cfg0.N) : Memref sig .tc .vmem S8192x1 .f32 := win0_2.stage (cfg0.slots t 2)
abbrev ms3 (t : Fin cfg0.N) : Memref sig .tc .vmem S8x8192 .f32 := win0_3.stage (cfg0.slots t 3)
/-- The scratch buffer: a whole buffer of the kernel's own, passed beside the windows. -/
abbrev scM : Memref sig .tc .vmem S8192x32 .bf16 := Memref.whole cc0_scratch0

/-- What the region's invariant holds for the body: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The accumulator block and the scratch, point by point -/

/-- After point `n`: (the accumulator block, the scratch). -/
def stateAt (c : Dev nD) : (n : ℕ) → n < cfg0.N → Vec F S8x8192 .f32 × Vec F S8192x32 .bf16
  | 0, hn =>
    (step (grid0.coords ⟨0, hn⟩) (iblk m c 0 ⟨0, hn⟩) (iblk m c 1 ⟨0, hn⟩) (iblk m c 2 ⟨0, hn⟩) zeroBlock (freshCopy (iblk m c 1 ⟨0, hn⟩)),
      freshCopy (iblk m c 1 ⟨0, hn⟩))
  | n + 1, hn =>
    if (n + 1) % 32 = 0 then
      (step (grid0.coords ⟨n + 1, hn⟩) (iblk m c 0 ⟨n + 1, hn⟩) (iblk m c 1 ⟨n + 1, hn⟩) (iblk m c 2 ⟨n + 1, hn⟩) zeroBlock (freshCopy (iblk m c 1 ⟨n + 1, hn⟩)),
        freshCopy (iblk m c 1 ⟨n + 1, hn⟩))
    else
      (step (grid0.coords ⟨n + 1, hn⟩) (iblk m c 0 ⟨n + 1, hn⟩) (iblk m c 1 ⟨n + 1, hn⟩) (iblk m c 2 ⟨n + 1, hn⟩)
          (stateAt c n (Nat.lt_of_succ_lt hn)).1 (stateAt c n (Nat.lt_of_succ_lt hn)).2,
        (stateAt c n (Nat.lt_of_succ_lt hn)).2)

/-- At the first point of a half: from the zero block and the fresh copy. -/
theorem stateAt_first (c : Dev nD) (t : Fin cfg0.N) (h : t.val % 32 = 0) :
    stateAt m c t.val t.isLt
      = (step (grid0.coords t) (iblk m c 0 t) (iblk m c 1 t) (iblk m c 2 t) zeroBlock (freshCopy (iblk m c 1 t)), freshCopy (iblk m c 1 t)) := by
  obtain ⟨n, hn⟩ := t
  cases n with
  | zero => rfl
  | succ n => exact (if_pos h).trans rfl

/-- At a later point: from what the point before left. -/
theorem stateAt_later (c : Dev nD) (t : Fin cfg0.N) (h : ¬t.val % 32 = 0) :
    stateAt m c t.val t.isLt
      = (step (grid0.coords t) (iblk m c 0 t) (iblk m c 1 t) (iblk m c 2 t)
            (stateAt m c (t.val - 1) (Nat.lt_of_le_of_lt (Nat.sub_le _ _) t.isLt)).1 (stateAt m c (t.val - 1) (Nat.lt_of_le_of_lt (Nat.sub_le _ _) t.isLt)).2,
          (stateAt m c (t.val - 1) (Nat.lt_of_le_of_lt (Nat.sub_le _ _) t.isLt)).2) := by
  obtain ⟨n, hn⟩ := t
  cases n with
  | zero => exact absurd (Nat.zero_mod _) h
  | succ n => exact (if_neg h).trans rfl

/-- The invariant before position `n`: before the first point the region's own (the scratch at anything); afterwards the
    scratch at what the point before left in it. -/
def PhiS (c : Dev nD) : (n : ℕ) → n ≤ cfg0.N → sProp 𝕄
  | 0, _ => Pipeline.ΦA spec0 c
  | n + 1, hn => iprop(iprop(owns (c : Thread nD τ) scM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((stateAt m c (n - 1) (by omega)).2)) ∗ (∃ r, prngReg c r)) := by
  cases n with
  | zero => exact absurd rfl hz
  | succ n => rfl

/-! ## The pipeline's proof data -/

/-- On core `c`: the arrays as the region finds them; after the body at point `t` each input's buffer at its block and the
    accumulator block at `stateAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (stateAt m c t.val t.isLt).1 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point that is not the first of its half the accumulator's buffer holds what the point before left: the point is
    not the first, the block was not written back between, the window is live and uncut. -/
theorem before3_later (c : Dev nD) (t : Fin cfg0.N) (h0 : ¬t.val % 32 = 0) (d) :
    (dats m 0 c).before 3 t d = (stateAt m c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4000000 in
/-- The body at any point. At the first point of a half (case A) it takes the accumulator's buffer and the scratch at
    anything and leaves them at `step` of the zero block and at the fresh copy; at a later point (case B) it finds them at
    what the point before left and leaves the accumulator at `step` of that, the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [after0, after1, after2, after3]
  have hN : t.val < 64 := lt_of_lt_of_eq t.isLt (show cfg0.N = 64 from N_0)
  by_cases h0 : t.val % 32 = 0
  · rw [stateAt_first m c t h0]; dsimp only
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((isFirst_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%f5, H3⟩, ⟨%f6, HS⟩⟩
      isplitl [HS Hg]
      · isplitl [HS]
        · unfold owns; iexists _; isplitr
          swap; · iexact HS
          ipureintro; exact (View.read_writes_eq_canon _ _ _ (runA_scratch_cover c _ _ _ _ _ _ _ _ _ _ _ _ _ _ _)).trans (runA_scratch c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (runA_cover c _ _ _ _ _ _ _ _ _ _ _ _ _ _ _)).trans (runA_leaves c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runA c (grid0.coords t) _ _ _ _ _ _ _ _ _ _ ((isFirst_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%f5, H3⟩, ⟨%f6, HS⟩⟩
      isplitl [HS Hg]
      · isplitl [HS]
        · unfold owns; iexists _; isplitr
          swap; · iexact HS
          ipureintro; exact (View.read_writes_eq_canon _ _ _ (runA_scratch_cover c _ _ _ _ _ _ _ _ _ _ _ _ _ _ _)).trans (runA_scratch c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact (View.read_writes_eq_canon _ _ _ (runA_cover c _ _ _ _ _ _ _ _ _ _ _ _ _ _ _)).trans (runA_leaves c _ _ _ _ _ _ _ _ _ _ _ _ _ _ _)
  · rw [stateAt_later m c t h0]; dsimp only
    have hz : t.val ≠ 0 := fun e => h0 (by rw [e])
    rw [PhiS_castSucc m c t, PhiS_pos m c _ _ hz]
    simp only [before3_later m c t h0]
    iintro ⟨⟨HS, Hg⟩, Ho, ⟨%d0, H0⟩, ⟨%d1, H1⟩, ⟨%d2, H2⟩, ⟨%d3, H3⟩⟩
    iapply ((runB c (grid0.coords t) _ _ _ _ _ _ _ _ _ _ (fun h => h0 ((isFirst_iff t).mp h)) (iblk m c 0 t) (iblk m c 1 t) (iblk m c 2 t) _ _).2 Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact runB_leaves c _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the region's own back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- For any values, from any memory with zero counters: every weakly fair execution of the program terminates, and every
    final state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs (terminates, no fault) and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.PayScal.lean ====
/-
  One row tile's scalar payload, read over the reals.

  With every loaded entry the coercion of a real number — the tile's 128 points y_r in R^32, their squared
  norms s_r, the tile's 128 x 8192 block of weights w_rl, all 8192 points y_l, and the running value a —
  the stored 1 x 1 value is
      a + (sum_r s_r * (sum_l w_rl) - 2 * sum_r sum_k y_rk * (sum_l w_rl * y_lk)).
  The ingredients, each read at an index: a sum along the second axis, a sum along the first axis, the
  cast [a] -> [a, 1], and a matrix product into a zero accumulator.
-/
import proofs.«149991_j5892695130791_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«149991_j5892695130791_2_alg».proof.Proof.LibDotRows

noncomputable section

namespace Cert.Pairwise.PayScal

open Idealize.ShloMosaic Cert.KernelIdeal Cert.KernelIdeal.Gen ValueIdx

variable [Cert.KernelIdeal.Facts]

/-- The coercion of a finite sum of reals is the sum of the coercions. -/
theorem coe_fsum {ι : Type*} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- The pattern of `2.0` denotes the real number 2. -/
theorem ofBits_two : Ideal.ofBits .f32 0x40000000#32 = ((2 : ℝ) : EReal) := by
  simp [Ideal.ofBits, Ideal.ieee, -EReal.coe_mul]; norm_num

/-- A sum along the second axis of an `[a, b]` array, read at row `r`: the sum over `k` of the entries `(r, k)`. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r)
      = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- A sum along the first axis of an `[a, b]` array, read at column `j`: the sum over `r` of the entries `(r, j)`. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (j : Fin b) :
    multiReduction (F := Ideal) .add [0] ⟨1, ![b]⟩ src 0x00000000#32 h hφ hacc (ix1 j)
      = ∑ r : Fin a, src (ix2 r j) := by
  refine (Ideal.multiReduction_add_single src 0x00000000#32 h hφ hacc (ix1 j)).trans ?_
  refine Finset.sum_congr rfl fun r _ => congrArg src ?_
  funext c
  match c with
  | ⟨0, _⟩ => rfl
  | ⟨1, _⟩ => rfl

/-- An `[a]` array cast to `[a, 1]` reads, at `(r, u)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The tile's matrix product into a zero accumulator, read at `(p, q)`: the sum over `k` of left `(p, k)` times
    right `(k, q)`. -/
theorem matmul_tile_apply (l : FVec Ideal S128x8192 .bf16) (r : FVec Ideal S8192x32 .bf16) (p : Fin 128) (q : Fin 32) :
    matmul (F := Ideal) dot_S128x8192_S8192x32_S128x32_1_0_0_1_n_n none l r (constant S128x32 .f32 0x00000000#32) (ix2 p q)
      = ∑ k : Fin 8192, l (ix2 p k) * r (ix2 k q) := by
  refine (Ideal.matmul_constant_zero_apply _ none l r (ix2 p q)).trans ?_
  dot_rows dot_S128x8192_S8192x32_S128x32_1_0_0_1_n_n S128x8192 S8192x32 8192

section Payloads

variable (yt : Fin 128 → Fin 32 → ℝ) (st : Fin 128 → ℝ) (wt : Fin 128 → Fin 8192 → ℝ) (yb : Fin 8192 → Fin 32 → ℝ) (a : ℝ)
  (v8 : Vec Ideal S128x32 .f32) (v10 : Vec Ideal S128x1 .f32) (v12 : Vec Ideal S128x8192 .f32)
  (v18 : Vec Ideal S8192x32 .bf16) (v32 : Vec Ideal S1x1 .f32)

/-- The cross term: the sum over the tile's rows `r` and the coordinates `k` of y_rk * (sum_l w_rl * y_lk). -/
theorem pay4_apply
    (h8 : ∀ (r : Fin 128) (k : Fin 32), v8 (ix2 r k) = ((yt r k : ℝ) : EReal))
    (h12 : ∀ (r : Fin 128) (l : Fin 8192), v12 (ix2 r l) = ((wt r l : ℝ) : EReal))
    (h18 : ∀ (l : Fin 8192) (k : Fin 32), v18 (ix2 l k) = ((yb l k : ℝ) : EReal)) :
    k0_pay4 (F := Ideal) v8 v12 v18 (ix2 (0 : Fin 1) (0 : Fin 1))
      = ((∑ r : Fin 128, ∑ k : Fin 32, yt r k * ∑ l : Fin 8192, wt r l * yb l k : ℝ) : EReal) := by
  unfold k0_pay4
  refine (shapeCast_a_1a_apply _ _ 0 0).trans ?_
  refine (colSum_apply _ _ _ _ 0).trans ?_
  rw [coe_fsum]
  refine Finset.sum_congr rfl fun r _ => ?_
  refine (shapeCast_a_a1_apply _ _ r 0).trans ?_
  refine (rowSum_apply _ _ _ _ r).trans ?_
  rw [coe_fsum]
  refine Finset.sum_congr rfl fun k _ => ?_
  refine (mulf_apply _ _ _).trans ?_
  rw [matmul_tile_apply, h8, EReal.coe_mul, coe_fsum]
  refine congrArg (_ * ·) (Finset.sum_congr rfl fun l _ => ?_)
  rw [truncf_apply, h12, h18, EReal.coe_mul]

/-- The norm term: the sum over the tile's rows `r` of s_r * (sum_l w_rl). -/
theorem pay5_apply
    (h10 : ∀ r : Fin 128, v10 (ix2 r (0 : Fin 1)) = ((st r : ℝ) : EReal))
    (h12 : ∀ (r : Fin 128) (l : Fin 8192), v12 (ix2 r l) = ((wt r l : ℝ) : EReal)) :
    k0_pay5 (F := Ideal) v10 v12 (ix2 (0 : Fin 1) (0 : Fin 1))
      = ((∑ r : Fin 128, st r * ∑ l : Fin 8192, wt r l : ℝ) : EReal) := by
  unfold k0_pay5
  refine (shapeCast_a_1a_apply _ _ 0 0).trans ?_
  refine (colSum_apply _ _ _ _ 0).trans ?_
  rw [coe_fsum]
  refine Finset.sum_congr rfl fun r _ => ?_
  refine (mulf_apply _ _ _).trans ?_
  rw [shapeCast_self, h10, EReal.coe_mul]
  refine congrArg (_ * ·) ?_
  refine (shapeCast_a_a1_apply _ _ r 0).trans ?_
  refine (rowSum_apply _ _ _ _ r).trans ?_
  rw [coe_fsum]
  exact Finset.sum_congr rfl fun l _ => h12 r l

/-- The running value, recast to its own shape. -/
theorem pay7_apply (h32 : v32 (ix2 (0 : Fin 1) (0 : Fin 1)) = ((a : ℝ) : EReal)) :
    k0_pay7 (F := Ideal) v32 (ix2 (0 : Fin 1) (0 : Fin 1)) = ((a : ℝ) : EReal) := by
  unfold k0_pay7
  rw [shapeCast_self, h32]

end Payloads

/-- The stored value: the running value plus the tile's norm term minus twice its cross term. -/
theorem pay_scal (yt : Fin 128 → Fin 32 → ℝ) (st : Fin 128 → ℝ) (wt : Fin 128 → Fin 8192 → ℝ) (yb : Fin 8192 → Fin 32 → ℝ) (a : ℝ)
    (v8 : Vec Ideal S128x32 .f32) (v10 : Vec Ideal S128x1 .f32) (v12 : Vec Ideal S128x8192 .f32) (v18 : Vec Ideal S8192x32 .bf16) (v32 : Vec Ideal S1x1 .f32)
    (h8 : ∀ (r : Fin 128) (k : Fin 32), v8 (ix2 r k) = ((yt r k : ℝ) : EReal)) (h10 : ∀ r : Fin 128, v10 (ix2 r (0 : Fin 1)) = ((st r : ℝ) : EReal))
    (h12 : ∀ (r : Fin 128) (l : Fin 8192), v12 (ix2 r l) = ((wt r l : ℝ) : EReal)) (h18 : ∀ (l : Fin 8192) (k : Fin 32), v18 (ix2 l k) = ((yb l k : ℝ) : EReal))
    (h32 : v32 (ix2 (0 : Fin 1) (0 : Fin 1)) = ((a : ℝ) : EReal)) :
    k0_pay1 (F := Ideal) (k0_pay4 v8 v12 v18) (k0_pay5 v10 v12) (k0_pay7 v32) (ix2 (0 : Fin 1) (0 : Fin 1))
      = ((a + ((∑ r : Fin 128, st r * ∑ l : Fin 8192, wt r l) - 2 * ∑ r : Fin 128, ∑ k : Fin 32, yt r k * ∑ l : Fin 8192, wt r l * yb l k) : ℝ) : EReal) := by
  unfold k0_pay1
  refine (addf_apply _ _ _).trans ?_
  rw [pay7_apply a v32 h32]
  refine (congrArg (_ + ·) ((subf_apply _ _ _).trans ?_)).trans (EReal.coe_add _ _).symm
  rw [pay5_apply st wt v10 v12 h10 h12]
  refine (congrArg (_ - ·) ((mulf_apply _ _ _).trans ?_)).trans (EReal.coe_sub _ _).symm
  rw [pay4_apply yt wt yb v8 v12 v18 h8 h12 h18, EReal.coe_mul]
  refine congrArg (· * _) ?_
  exact ofBits_two

end Cert.Pairwise.PayScal

end
-- ==== Proof.Spec.lean ====
/-
  The weighted sum of pairwise squared distances, over the reals: what both programs compute, as two
  arrangements of one number. Points y_i in R^32 (i < 8192), weights w_ij.

  * `refSum`: sum over all pairs (i, j) of w_ij * max(|y_i|^2 + |y_j|^2 - 2 <y_i, y_j>, 0).
  * `kerSum`: the rows are cut into 64 tiles of 128 rows; tile t contributes its column sums
    (`tileCol`) and the number `tileScal` = sum_r |y_r|^2 * rowsum_r(w) - 2 * sum_r sum_k y_rk * (w y)_rk over its rows r;
    tiles 0..31 and 32..63 are accumulated apart (`coreCol`, `coreScal`), and the two halves are joined by
    (s_0 + s_1) + sum_j |y_j|^2 * (col_0 j + col_1 j).
  No program is mentioned here.
-/
import Mathlib.Data.Real.Basic
import Mathlib.Algebra.BigOperators.Group.Finset.Basic
import Mathlib.Algebra.Order.BigOperators.Group.Finset

namespace Cert.Pairwise

open Finset

/-- Row `r` of row tile `t`: 64 tiles of 128 rows. -/
def tileRow (t : Fin 64) (r : Fin 128) : Fin 8192 := ⟨128 * t.val + r.val, by omega⟩

/-- The tile that half `c` visits at its step `j`: tile 32 c + j. -/
def tileOf (c : Fin 2) (j : Fin 32) : Fin 64 := ⟨32 * c.val + j.val, by omega⟩

variable (y : Fin 8192 → Fin 32 → ℝ) (w : Fin 8192 → Fin 8192 → ℝ)

/-- |y_i|^2. -/
def sqn (i : Fin 8192) : ℝ := ∑ k : Fin 32, y i k * y i k

/-- <y_i, y_j>. -/
def gram (i j : Fin 8192) : ℝ := ∑ k : Fin 32, y i k * y j k

/-- The reference's number (before the division by 8192). -/
def refSum : ℝ := ∑ i : Fin 8192, ∑ j : Fin 8192, w i j * max (sqn y i + sqn y j - 2 * gram y i j) 0

/-- Column sums of `w` over the rows of tile `t`. -/
def tileCol (t : Fin 64) (j : Fin 8192) : ℝ := ∑ r : Fin 128, w (tileRow t r) j

/-- Tile `t`'s scalar part: sum_r |y_r|^2 * rowsum_r - 2 * sum_r sum_k y_rk * (sum_l w_rl y_lk). -/
def tileScal (t : Fin 64) : ℝ :=
  (∑ r : Fin 128, sqn y (tileRow t r) * ∑ l : Fin 8192, w (tileRow t r) l)
    - 2 * ∑ r : Fin 128, ∑ k : Fin 32, y (tileRow t r) k * ∑ l : Fin 8192, w (tileRow t r) l * y l k

/-- Half `c`'s column sums: its 32 tiles' column sums added up. -/
def coreCol (c : Fin 2) (j : Fin 8192) : ℝ := ∑ jj : Fin 32, tileCol w (tileOf c jj) j

/-- Half `c`'s scalar part. -/
def coreScal (c : Fin 2) : ℝ := ∑ jj : Fin 32, tileScal y w (tileOf c jj)

/-- The kernel's number (before the division by 8192). -/
def kerSum : ℝ := (coreScal y w 0 + coreScal y w 1) + ∑ j : Fin 8192, sqn y j * (coreCol w 0 j + coreCol w 1 j)

end Cert.Pairwise
-- ==== Proof.StepScal.lean ====
/-
  One grid point's effect on entry (4, 0) of the accumulator block, read over the reals, and which rows a
  point's tile holds.

  A point stores, last, the 1 x 1 value "old entry + (norm term - 2 * cross term)" at entry (4, 0); so after the
  point that entry is the running value a plus
      sum_r s_r * (sum_l w_rl) - 2 * sum_r sum_k y_rk * (sum_l w_rl * y_lk)
  over the tile's 128 rows. Point t of the 64 (t = 32 c + j at grid coordinates (c, j)) loads rows
  128 t .. 128 t + 127 of the points and of their squared norms: its row offset, 32-bit word arithmetic on
  the two coordinates, is 128 t.
-/
import proofs.«149991_j5892695130791_2_alg».proof.Proof.BodyCases
import proofs.«149991_j5892695130791_2_alg».proof.Proof.PayScal
import proofs.«149991_j5892695130791_2_alg».proof.Proof.Spec

noncomputable section

namespace Cert.Pairwise.StepScal

open Idealize.ShloMosaic Cert.KernelIdeal Cert.KernelIdeal.Gen Cert.KernelIdeal.Hand Cert.Lib.Overlays ValueIdx

/-- Entry (4, 0) of the accumulator block is the one entry of the 1 x 1 rectangle at offsets (4, 0). -/
theorem e40_eq_emb : (ix2 (4 : Fin 8) (0 : Fin 8192) : S8x8192.Idx) = R40.emb (ix2 (0 : Fin 1) (0 : Fin 1)) :=
  funext fun c => Fin.ext (by match c with | ⟨0, _⟩ => rfl | ⟨1, _⟩ => rfl)

/-- A load through that rectangle reads, at its one index, entry (4, 0). -/
theorem ld_r40 (xo : Vec Ideal S8x8192 .f32) :
    View.ld xo R40 (ix2 (0 : Fin 1) (0 : Fin 1)) = xo (ix2 (4 : Fin 8) (0 : Fin 8192)) :=
  congrArg xo (funext fun c => Fin.ext (by match c with | ⟨0, _⟩ => rfl | ⟨1, _⟩ => rfl))

/-- After a point, entry (4, 0) of the accumulator block is the running value plus the tile's norm term minus twice
    its cross term. -/
theorem step_e40 (i : grid0.Coords) (x0 : Vec Ideal S128x8192 .f32) (x1 : Vec Ideal S8192x32 .f32) (x2 : Vec Ideal S8192x1 .f32) (xo : Vec Ideal S8x8192 .f32) (ys : Vec Ideal S8192x32 .bf16)
    (yt : Fin 128 → Fin 32 → ℝ) (st : Fin 128 → ℝ) (wt : Fin 128 → Fin 8192 → ℝ) (yb : Fin 8192 → Fin 32 → ℝ) (a : ℝ)
    (h1 : ∀ (r : Fin 128) (k : Fin 32), View.ld x1 (RYt i) (ix2 r k) = ((yt r k : ℝ) : EReal)) (h2 : ∀ r : Fin 128, View.ld x2 (RSt i) (ix2 r (0 : Fin 1)) = ((st r : ℝ) : EReal))
    (h0 : ∀ (r : Fin 128) (l : Fin 8192), x0 (ix2 r l) = ((wt r l : ℝ) : EReal)) (hs : ∀ (l : Fin 8192) (k : Fin 32), ys (ix2 l k) = ((yb l k : ℝ) : EReal))
    (ho : xo (ix2 (4 : Fin 8) (0 : Fin 8192)) = ((a : ℝ) : EReal)) :
    step i x0 x1 x2 xo ys (ix2 (4 : Fin 8) (0 : Fin 8192))
      = ((a + ((∑ r : Fin 128, st r * ∑ l : Fin 8192, wt r l) - 2 * ∑ r : Fin 128, ∑ k : Fin 32, yt r k * ∑ l : Fin 8192, wt r l * yb l k) : ℝ) : EReal) := by
  unfold step stepPieces
  rw [e40_eq_emb, overlays_cons_emb, View.ld_unit_zero hz2, View.ld_unit_zero hz2]
  exact Cert.Pairwise.PayScal.pay_scal yt st wt yb a (View.ld x1 (RYt i)) (View.ld x2 (RSt i)) x0 ys (View.ld xo R40)
    h1 h2 h0 hs ((ld_r40 xo).trans ho)

/-- The row offset of point `t`'s tile, in both loads, is 128 t (and the column offset 0). -/
theorem tile_rows : ∀ t : Fin cfg0.N, k0_off1 (grid0.coords t) = ![128 * t.val, 0] ∧ k0_off2 (grid0.coords t) = ![128 * t.val, 0] :=
  (by decide +kernel : ∀ t : Fin grid0.N, k0_off1 (grid0.coords t) = ![128 * t.val, 0] ∧ k0_off2 (grid0.coords t) = ![128 * t.val, 0])

/-- Point `t`'s load of its 128 rows of the points reads, at `(r, k)`, coordinate `k` of point `128 t + r`. -/
theorem ld_tileY (x1 : Vec Ideal S8192x32 .f32) (t : Fin cfg0.N) (r : Fin 128) (k : Fin 32) :
    View.ld x1 (RYt (grid0.coords t)) (ix2 r k) = x1 (ix2 (Cert.Pairwise.tileRow ⟨t.val, by have := t.isLt; have : cfg0.N = 64 := Gen.N_0; omega⟩ r) k) := by
  refine congrArg x1 (funext fun c => Fin.ext ?_)
  match c with
  | ⟨0, _⟩ =>
    show (k0_off1 (grid0.coords t)) 0 + 1 * r.val = 128 * t.val + r.val
    rw [(tile_rows t).1, Nat.one_mul]; rfl
  | ⟨1, _⟩ =>
    show (k0_off1 (grid0.coords t)) 1 + 1 * k.val = k.val
    rw [(tile_rows t).1, Nat.one_mul]; exact Nat.zero_add _

/-- Point `t`'s load of its 128 squared norms reads, at `(r, 0)`, the squared norm of point `128 t + r`. -/
theorem ld_tileS (x2 : Vec Ideal S8192x1 .f32) (t : Fin cfg0.N) (r : Fin 128) :
    View.ld x2 (RSt (grid0.coords t)) (ix2 r (0 : Fin 1)) = x2 (ix2 (Cert.Pairwise.tileRow ⟨t.val, by have := t.isLt; have : cfg0.N = 64 := Gen.N_0; omega⟩ r) (0 : Fin 1)) := by
  refine congrArg x2 (funext fun c => Fin.ext ?_)
  match c with
  | ⟨0, _⟩ =>
    show (k0_off2 (grid0.coords t)) 0 + 1 * r.val = 128 * t.val + r.val
    rw [(tile_rows t).2, Nat.one_mul]; rfl
  | ⟨1, _⟩ =>
    show (k0_off2 (grid0.coords t)) 1 + 1 * (0 : Fin 1).val = (0 : Fin 1).val
    rw [(tile_rows t).2]; rfl

end Cert.Pairwise.StepScal

end
-- ==== Proof.PayCols.lean ====
/-
  The kernel body's stored values read at an index, over the extended reals, when the inputs are reals.

  * The column-sum row: the 1 x 8192 row that the body stores is the old row plus, at column l, the sum over the
    128 rows r of the tile's entry (r, l).  A sum of reals, read on the extended reals, is the real sum.
  * The zero splat is the real 0.
  * The narrowed copy of the points: a change of float format is the identity on the extended reals and a reshape to
    the same shape is the identity, so an entry that is a real stays that real.
-/
import proofs.«149991_j5892695130791_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

namespace Cert.Pairwise.PayCols

open Idealize.ShloMosaic Cert.KernelIdeal Cert.KernelIdeal.Gen ValueIdx
open scoped BigOperators

variable [Cert.KernelIdeal.Facts]

/-- The inclusion of the reals in the extended reals carries a finite sum to the sum of the images. -/
theorem coe_finsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the row axis of a 128 x 8192 array, read at column l: the sum over the 128 rows of entry (r, l). -/
theorem colsum_apply (v : FVec Ideal S128x8192 .f32) (h : S128x8192.Reduces [0] S8192) (hφ : FKind.Formats .f32)
    (hacc : (0x00000000#32 : BitVec 32) = FKind.add.neutral .f32 hφ) (l : Fin 8192) :
    multiReduction (F := Ideal) .add [0] S8192 v 0x00000000#32 h hφ hacc (ix1 l) = ∑ r : Fin 128, v (ix2 r l) := by
  refine (Ideal.multiReduction_add_single v 0x00000000#32 h hφ hacc (ix1 l)).trans ?_
  refine Finset.sum_congr rfl fun r _ => congrArg v ?_
  funext c
  match c with
  | ⟨0, _⟩ => exact Fin.ext rfl
  | ⟨1, _⟩ => exact Fin.ext rfl

/-- A vector of 8192 entries viewed as a 1 x 8192 row, read at (0, l): entry l. -/
theorem row_of_vec_apply {α : Type} (v : S8192.Idx → α) (h : S8192.ShapeCasts S1x8192) (l : Fin 8192) :
    shapeCast S1x8192 v h (ix2 (0 : Fin 1) l) = v (ix1 l) := by
  refine shapeCast_apply v h _ _ ?_
  rw [Shape.rowMajor_val_one, Shape.rowMajor_val_two]
  show l.val = 0 * 8192 + l.val
  omega

theorem pay_cols (wt : Fin 128 → Fin 8192 → ℝ) (a : Fin 8192 → ℝ) (v12 : Vec Ideal S128x8192 .f32) (v28 : Vec Ideal S1x8192 .f32)
    (h12 : ∀ (r : Fin 128) (l : Fin 8192), v12 (ix2 r l) = ((wt r l : ℝ) : EReal)) (h28 : ∀ l : Fin 8192, v28 (ix2 (0 : Fin 1) l) = ((a l : ℝ) : EReal)) (l : Fin 8192) :
    k0_pay6 (F := Ideal) v12 v28 (ix2 (0 : Fin 1) l) = ((a l + ∑ r : Fin 128, wt r l : ℝ) : EReal) := by
  unfold k0_pay6
  refine (addf_apply _ _ _).trans ?_
  rw [shapeCast_self, h28 l]
  refine (congrArg (fun z => ((a l : ℝ) : EReal) + z) ((row_of_vec_apply _ _ l).trans (colsum_apply v12 _ _ _ l))).trans ?_
  rw [EReal.coe_add, coe_finsum]
  exact congrArg (fun z => ((a l : ℝ) : EReal) + z) (Finset.sum_congr rfl fun r _ => h12 r l)

theorem pay_zero (j : S8x8192.Idx) : k0_pay2 (F := Ideal) j = ((0 : ℝ) : EReal) := by
  unfold k0_pay2
  show Ideal.ofBits .f32 0x00000000#32 = _
  rw [Ideal.ofBits_zero_f32, EReal.coe_zero]

theorem pay_copy (v41 : Vec Ideal S8192x32 .f32) (l : Fin 8192) (k : Fin 32) (r : ℝ) (h : v41 (ix2 l k) = ((r : ℝ) : EReal)) :
    k0_pay3 (F := Ideal) v41 (ix2 l k) = ((r : ℝ) : EReal) := by
  unfold k0_pay3
  rw [shapeCast_self]
  exact h

end Cert.Pairwise.PayCols
-- ==== Proof.StepCols.lean ====
/-
  One grid point's effect on the accumulator block, read at an index of row 0, over the extended reals.

  A point lays two stores over the block it finds: entry (4, 0) and row 0.  An index (0, l) of row 0 is not the
  entry (4, 0), so there the block holds what the row-0 store wrote: the old row-0 entry plus the tile's column sum,
  the real number a_l + sum_r wt_rl when the old entry is the real a_l and the tile's entries are the reals wt_rl.
  The zero block is 0 everywhere, and the narrowed copy of the points holds the same reals as the points.
-/
import proofs.«149991_j5892695130791_2_alg».proof.Proof.BodyCases
import proofs.«149991_j5892695130791_2_alg».proof.Proof.PayCols
import Idealize.ShloMosaic.Lib.ValueIdx
import Idealize.ShloMosaic.Lib.Pipeline.Value
import Idealize.ShloMosaic.PureOps.Ideal.Laws

namespace Cert.Pairwise.StepCols

open Idealize.ShloMosaic Cert.KernelIdeal Cert.KernelIdeal.Gen Cert.KernelIdeal.Hand Cert.Lib.Overlays ValueIdx
open Cert.Pairwise.PayCols
open scoped BigOperators

theorem zeroBlock_apply (j : S8x8192.Idx) : zeroBlock (F := Ideal) j = ((0 : ℝ) : EReal) := by
  unfold zeroBlock
  exact (congrFun (View.canon_unit_zero hz2 _ _) j).trans (pay_zero j)

theorem freshCopy_apply (x1 : Vec Ideal S8192x32 .f32) (l : Fin 8192) (k : Fin 32) (r : ℝ) (h : x1 (ix2 l k) = ((r : ℝ) : EReal)) :
    freshCopy x1 (ix2 l k) = ((r : ℝ) : EReal) := by
  unfold freshCopy
  refine (congrFun (View.canon_unit_zero hz2 _ _) (ix2 l k)).trans ?_
  rw [View.ld_unit_zero hz2]
  exact pay_copy x1 l k r h

/-- An index of row 0 is not the entry (4, 0): its row coordinate is 0, below 4. -/
theorem row0_not_mem_r40 (l : Fin 8192) : (ix2 (0 : Fin 8) l : S8x8192.Idx) ∉ R40.set := by
  intro h
  have h0 := ((Rect.mem_set_unit.mp h) 0).1
  have e1 : (![4, 0] : Fin 2 → Nat) 0 = 4 := rfl
  have e2 : (((ix2 (0 : Fin 8) l : S8x8192.Idx) 0 : Fin _) : Nat) = 0 := rfl
  omega

/-- Row 0's own index (0, l), placed in the block, is the block's index (0, l). -/
theorem r0_emb (l : Fin 8192) : R0.emb (ix2 (0 : Fin 1) l : R0.shape.Idx) = (ix2 (0 : Fin 8) l : S8x8192.Idx) := by
  funext c
  match c with
  | ⟨0, _⟩ => exact Fin.ext rfl
  | ⟨1, _⟩ => exact Fin.ext (by show 0 + 1 * l.val = l.val; omega)

/-- Two stores laid over a block, entry (4, 0) on top of row 0: at an index (0, l) of row 0 the block holds what the
    row-0 store wrote at its own index (0, l). -/
theorem overlays_two_row0 (X : Vec Ideal S8x8192 .f32) (w40 : R40.shape.Idx → Elt Ideal .f32) (w0 : R0.shape.Idx → Elt Ideal .f32)
    (l : Fin 8192) :
    overlays X [(⟨R40, w40⟩ : View.Piece (Elt Ideal) S8x8192 .f32), (⟨R0, w0⟩ : View.Piece (Elt Ideal) S8x8192 .f32)]
        (ix2 (0 : Fin 8) l : S8x8192.Idx)
      = w0 (ix2 (0 : Fin 1) l : R0.shape.Idx) := by
  have h1 := overlays_cons_of_not_mem X (⟨R40, w40⟩ : View.Piece (Elt Ideal) S8x8192 .f32)
    [(⟨R0, w0⟩ : View.Piece (Elt Ideal) S8x8192 .f32)] (y := (ix2 (0 : Fin 8) l : S8x8192.Idx)) (row0_not_mem_r40 l)
  have h2 := overlays_cons_emb X R0 w0 [] (ix2 (0 : Fin 1) l : R0.shape.Idx)
  rw [r0_emb l] at h2
  exact h1.trans h2

theorem step_row0 (i : grid0.Coords) (x0 : Vec Ideal S128x8192 .f32) (x1 : Vec Ideal S8192x32 .f32) (x2 : Vec Ideal S8192x1 .f32) (xo : Vec Ideal S8x8192 .f32) (ys : Vec Ideal S8192x32 .bf16)
    (wt : Fin 128 → Fin 8192 → ℝ) (a : Fin 8192 → ℝ) (h0 : ∀ (r : Fin 128) (l : Fin 8192), x0 (ix2 r l) = ((wt r l : ℝ) : EReal)) (ho : ∀ l : Fin 8192, xo (ix2 (0 : Fin 8) l) = ((a l : ℝ) : EReal)) (l : Fin 8192) :
    step i x0 x1 x2 xo ys (ix2 (0 : Fin 8) l) = ((a l + ∑ r : Fin 128, wt r l : ℝ) : EReal) := by
  unfold step stepPieces
  refine (overlays_two_row0 xo _ _ l).trans ?_
  refine pay_cols wt a _ _ (fun r l' => ?_) (fun l' => ?_) l
  · rw [View.ld_unit_zero hz2]; exact h0 r l'
  · show xo (R0.emb (ix2 (0 : Fin 1) l' : R0.shape.Idx)) = _
    rw [r0_emb l']; exact ho l'

end Cert.Pairwise.StepCols
-- ==== Proof.BlockReads.lean ====
import proofs.«149991_j5892695130791_2_alg».proof.Proof.Gen.KernelIdeal.Frame
import proofs.«149991_j5892695130791_2_alg».proof.Proof.Spec
import Idealize.ShloMosaic.Lib.Pipeline.Value
import Idealize.ShloMosaic.Lib.ValueIdx

noncomputable section

namespace Cert.Pairwise.BlockReads

open Cert.KernelIdeal Cert.KernelIdeal.Gen
open Idealize.ShloMosaic Idealize.ShloMosaic.TcCoe Idealize.SL.Sem
open Idealize.ShloMosaic.ValueIdx

variable {F : FTy → Type} [FloatOps F]

/-! ## Where each window's block sits in its array

The grid has 64 points; at point `t` the weights' block is block row `t` (its 128 rows are rows 128 t … 128 t + 127, every
column), and the points' and the squared norms' blocks are the whole arrays. An element of a block sits in the array, on each
axis, at the block index times the block's size plus its coordinate in the block. -/

/-- The weights' block index at point `t` is `(t, 0)`. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The points' block index is `(0, 0)` at every point. -/
theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The squared norms' block index is `(0, 0)` at every point. -/
theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The weights' block at point `t`, read at `(r, l)`, is the weights at row `r` of tile `t`, column `l`. -/
theorem iblk0_apply (m : (ℓ : Loc nD τ sig) → Buf (Elt F) ℓ) (c : Dev nD) (t : Fin cfg0.N) (r : Fin 128) (l : Fin 8192) :
    iblk m c 0 t (ValueIdx.ix2 r l)
      = V m c main_arg1 (ValueIdx.ix2 (Cert.Pairwise.tileRow ⟨t.val, by have := t.isLt; have : cfg0.N = 64 := N_0; omega⟩ r) l) := by
  unfold iblk
  show V m c main_arg1 (((cfg0.win 0).blk t).view.emb (ix2 r l)) = V m c main_arg1 _
  obtain ⟨e0, e1⟩ := index0_0 t
  refine congrArg (V m c main_arg1) (funext fun a => Fin.ext ?_)
  match a with
  | ⟨0, _⟩ => show win0_0.index t (0 : Fin 2) * 128 + 1 * r.val = 128 * t.val + r.val; omega
  | ⟨1, _⟩ => show win0_0.index t (1 : Fin 2) * 8192 + 1 * l.val = l.val; omega

/-- The points' block, read at `(l, k)`, is the points at `(l, k)`. -/
theorem iblk1_apply (m : (ℓ : Loc nD τ sig) → Buf (Elt F) ℓ) (c : Dev nD) (t : Fin cfg0.N) (l : Fin 8192) (k : Fin 32) :
    iblk m c 1 t (ValueIdx.ix2 l k) = V m c main_arg0 (ValueIdx.ix2 l k) := by
  unfold iblk
  show V m c main_arg0 (((cfg0.win 1).blk t).view.emb (ix2 l k)) = V m c main_arg0 _
  obtain ⟨e0, e1⟩ := index0_1 t
  refine congrArg (V m c main_arg0) (funext fun a => Fin.ext ?_)
  match a with
  | ⟨0, _⟩ => show win0_1.index t (0 : Fin 2) * 8192 + 1 * l.val = l.val; omega
  | ⟨1, _⟩ => show win0_1.index t (1 : Fin 2) * 32 + 1 * k.val = k.val; omega

/-- The squared norms' block, read at `(l, 0)`, is the squared-norm column at `(l, 0)`. -/
theorem iblk2_apply (m : (ℓ : Loc nD τ sig) → Buf (Elt F) ℓ) (c : Dev nD) (t : Fin cfg0.N) (l : Fin 8192) :
    iblk m c 2 t (ValueIdx.ix2 l (0 : Fin 1)) = V m c main_v2 (ValueIdx.ix2 l (0 : Fin 1)) := by
  unfold iblk
  show V m c main_v2 (((cfg0.win 2).blk t).view.emb (ix2 l (0 : Fin 1))) = V m c main_v2 _
  obtain ⟨e0, e1⟩ := index0_2 t
  refine congrArg (V m c main_v2) (funext fun a => Fin.ext ?_)
  match a with
  | ⟨0, _⟩ => show win0_2.index t (0 : Fin 2) * 8192 + 1 * l.val = l.val; omega
  | ⟨1, _⟩ => show win0_2.index t (1 : Fin 2) * 1 + 1 * (0 : Fin 1).val = (0 : Fin 1).val; omega

end Cert.Pairwise.BlockReads

end
-- ==== Proof.HostSide.lean ====
import proofs.«149991_j5892695130791_2_alg».proof.Proof.Gen.KernelIdeal.Frame
import proofs.«149991_j5892695130791_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.Pairwise.HostSide

open Cert.KernelIdeal Cert.KernelIdeal.Gen
open Idealize.ShloMosaic Idealize.ShloMosaic.TcCoe Idealize.SL.Sem Idealize.ShloMosaic.StableHlo
open Idealize.ShloMosaic.ValueIdx
open Finset

/-- The squared norms as a column: the product of the points with themselves, summed over the 32 coordinates from
    zero, laid out as an [8192, 1] array. -/
def sqCol (x0 : (⟨S8192x32, .f32⟩ : BufTy).Contents (Elt Ideal)) : (⟨S8192x1, .f32⟩ : BufTy).Contents (Elt Ideal) :=
  broadcastInDim S8192x1 ![0] bcast_S8192_S8192x1_0
    (Host.reduceAdd (F := Ideal) (mulf x0 x0) (constant (F := Ideal) S_ .f32 0x00000000#32) reducesTo_S8192x32_S8192_d1 h_S_)

theorem head_v2 (m : (ℓ : Loc nD τ sig) → Buf (Elt Ideal) ℓ) (c : Dev nD) :
    Gen.V m c main_v2 = sqCol (m ((c : Thread nD τ).loc main_arg0)) := by
  show StableHlo.after (hostOps0 (F := Ideal)) (fun b => m (c, b)) (Proc.devRef .tc main_v2) = _
  after_results
  rfl

/-! ## Reading the squared-norm column at an index -/

/-- The embedding of the reals in the extended reals commutes with finite sums. -/
theorem coe_finset_sum {ι : Type} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- A vector laid out as a column reads, at `(i, 0)`, the vector at `i`. -/
theorem column_apply (v : (⟨S8192, .f32⟩ : BufTy).Contents (Elt Ideal)) (i : Fin 8192) :
    broadcastInDim S8192x1 ![0] bcast_S8192_S8192x1_0 v (ix2 i (0 : Fin 1)) = v (ix1 i) :=
  broadcastInDim_apply _ bcast_S8192_S8192x1_0 v (ix2 i (0 : Fin 1)) (ix1 i) (fun a => match a with
    | ⟨0, _⟩ => by show i.val = if (8192 : Nat) = 1 then 0 else i.val; rw [if_neg (by decide)])

/-- The sum over the second axis of an [8192, 32] array, from zero, reads at `i` the sum of row `i`. -/
theorem rowSum_apply (P : (⟨S8192x32, .f32⟩ : BufTy).Contents (Elt Ideal)) (i : Fin 8192) :
    Host.reduceAdd (F := Ideal) P (constant (F := Ideal) S_ .f32 0x00000000#32) reducesTo_S8192x32_S8192_d1 h_S_ (ix1 i)
      = ∑ k : Fin 32, P (ix2 i k) := by
  simp only [Host.reduceAdd, Ideal.hostReduceAdd_def]
  rw [Ideal.hostReduceAdd_single reducesTo_S8192x32_S8192_d1 (by decide)]
  show Ideal.ofBits .f32 0x00000000#32 + _ = _
  rw [Ideal.ofBits_zero_f32, zero_add]
  refine Finset.sum_congr rfl fun k _ => ?_
  exact congrArg P (funext fun a => Fin.ext (by match a with | ⟨0, _⟩ => rfl | ⟨1, _⟩ => rfl))

/-- With the points' coordinates real, entry `(i, 0)` of the column is the squared norm of point `i`. -/
theorem sqCol_apply (y : Fin 8192 → Fin 32 → ℝ) (x0 : (⟨S8192x32, .f32⟩ : BufTy).Contents (Elt Ideal))
    (h0 : ∀ (i : Fin 8192) (k : Fin 32), x0 (ValueIdx.ix2 i k) = ((y i k : ℝ) : EReal)) (i : Fin 8192) :
    sqCol x0 (ValueIdx.ix2 i (0 : Fin 1)) = ((Cert.Pairwise.sqn y i : ℝ) : EReal) := by
  unfold sqCol
  rw [column_apply, rowSum_apply]
  unfold Cert.Pairwise.sqn
  rw [coe_finset_sum]
  refine Finset.sum_congr rfl fun k _ => ?_
  rw [mulf_apply, h0, EReal.coe_mul]

/-! ## The lines after the call -/

/-- What the lines after the call compute from the call's [16, 8192] result `O` and the squared-norm column `s`:
    the two scalars at (4, 0) and (12, 0) added, plus the sum over `j` of `s j` times the sum of rows 0 and 8 at `j`. -/
def tailSum (O : (⟨S16x8192, .f32⟩ : BufTy).Contents (Elt Ideal)) (s : (⟨S8192x1, .f32⟩ : BufTy).Contents (Elt Ideal)) :
    (⟨S_, .f32⟩ : BufTy).Contents (Elt Ideal) :=
  addf
    (addf (shapeCast S_ (extractStridedSlice S1x1 ![4, 0] O slices_S16x8192_S1x1_4_0) shapeCasts_S1x1_S_)
          (shapeCast S_ (extractStridedSlice S1x1 ![12, 0] O slices_S16x8192_S1x1_12_0) shapeCasts_S1x1_S_))
    (Host.reduceAdd (F := Ideal)
      (mulf (shapeCast S8192 s shapeCasts_S8192x1_S8192)
            (addf (shapeCast S8192 (extractStridedSlice S1x8192 ![0, 0] O slices_S16x8192_S1x8192_0_0) shapeCasts_S1x8192_S8192)
                  (shapeCast S8192 (extractStridedSlice S1x8192 ![8, 0] O slices_S16x8192_S1x8192_8_0) shapeCasts_S1x8192_S8192)))
      (constant (F := Ideal) S_ .f32 0x00000000#32) reducesTo_S8192_S_d0 h_S_)

theorem tail_v18 (W0 : Valuation τ sig (Elt Ideal)) :
    StableHlo.after (hostOps1 (F := Ideal)) W0 (Proc.devRef .tc main_v18)
      = Host.divf (F := Ideal) (tailSum (W0 (Proc.devRef .tc main_v3)) (W0 (Proc.devRef .tc main_v2)))
          (constant (F := Ideal) S_ .f32 0x46000000#32) := by
  after_results
  rfl

/-! ## Reading the lines after the call at an index -/

/-- The one-element slice of `O` at `(r, 0)`, recast to a scalar, reads `O` at `(r, 0)`. -/
theorem scalarAt_apply (O : (⟨S16x8192, .f32⟩ : BufTy).Contents (Elt Ideal)) (o : Nat)
    (h : S16x8192.Slices ![o, 0] S1x1) (r : Fin 16) (hr : r.val = o) (i : S_.Idx) :
    shapeCast S_ (extractStridedSlice S1x1 ![o, 0] O h) shapeCasts_S1x1_S_ i = O (ix2 r (0 : Fin 8192)) := by
  rw [shapeCast_apply _ shapeCasts_S1x1_S_ i (ix2 (0 : Fin 1) (0 : Fin 1)) (by
    rw [Shape.rowMajor_val_two]
    exact (Shape.rowMajorPi_zero _ _).symm)]
  exact extractStridedSlice_apply _ O h _ (ix2 r (0 : Fin 8192)) (fun a => match a with
    | ⟨0, _⟩ => hr
    | ⟨1, _⟩ => rfl)

/-- Row `r` of `O` cut out as a [1, 8192] slice and recast to a vector reads, at `j`, `O` at `(r, j)`. -/
theorem rowAt_apply (O : (⟨S16x8192, .f32⟩ : BufTy).Contents (Elt Ideal)) (o : Nat)
    (h : S16x8192.Slices ![o, 0] S1x8192) (r : Fin 16) (hr : r.val = o) (j : Fin 8192) :
    shapeCast S8192 (extractStridedSlice S1x8192 ![o, 0] O h) shapeCasts_S1x8192_S8192 (ix1 j) = O (ix2 r j) := by
  rw [shapeCast_1a_a_apply]
  exact slice2_axis0_apply o O h (0 : Fin 1) j r hr

/-- The column recast to a vector reads, at `j`, the column at `(j, 0)`. -/
theorem colVec_apply (s : (⟨S8192x1, .f32⟩ : BufTy).Contents (Elt Ideal)) (j : Fin 8192) :
    shapeCast S8192 s shapeCasts_S8192x1_S8192 (ix1 j) = s (ix2 j (0 : Fin 1)) :=
  shapeCast_apply s shapeCasts_S8192x1_S8192 (ix1 j) (ix2 j (0 : Fin 1)) (by
    rw [Shape.rowMajor_val_two, Shape.rowMajor_val_one]
    show j.val * 1 + 0 = j.val
    omega)

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of a vector of 8192 entries over its one axis, from zero, is the sum of its entries: the result has no
    axis left, so every entry reduces to its one index. -/
theorem vecSum_apply (Q : (⟨S8192, .f32⟩ : BufTy).Contents (Elt Ideal)) (i : S_.Idx) :
    Host.reduceAdd (F := Ideal) Q (constant (F := Ideal) S_ .f32 0x00000000#32) reducesTo_S8192_S_d0 h_S_ i
      = ∑ j : Fin 8192, Q (ix1 j) := by
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add]
  exact sum_idx1 Q

/-- With the call's result real at the entries read — `a0`, `a1` at (4, 0), (12, 0); `c0`, `c1` along rows 0, 8 —
    and the column real, `sq`, the lines after the call compute (a0 + a1) + sum_j sq j * (c0 j + c1 j). -/
theorem tailSum_apply (O : (⟨S16x8192, .f32⟩ : BufTy).Contents (Elt Ideal)) (s : (⟨S8192x1, .f32⟩ : BufTy).Contents (Elt Ideal))
    (a0 a1 : ℝ) (c0 c1 sq : Fin 8192 → ℝ)
    (hO4 : O (ValueIdx.ix2 (4 : Fin 16) (0 : Fin 8192)) = ((a0 : ℝ) : EReal))
    (hO12 : O (ValueIdx.ix2 (12 : Fin 16) (0 : Fin 8192)) = ((a1 : ℝ) : EReal))
    (hO0 : ∀ j : Fin 8192, O (ValueIdx.ix2 (0 : Fin 16) j) = ((c0 j : ℝ) : EReal))
    (hO8 : ∀ j : Fin 8192, O (ValueIdx.ix2 (8 : Fin 16) j) = ((c1 j : ℝ) : EReal))
    (hs : ∀ j : Fin 8192, s (ValueIdx.ix2 j (0 : Fin 1)) = ((sq j : ℝ) : EReal)) (i : S_.Idx) :
    tailSum O s i = (((a0 + a1) + ∑ j : Fin 8192, sq j * (c0 j + c1 j) : ℝ) : EReal) := by
  unfold tailSum
  rw [addf_apply, addf_apply, vecSum_apply,
    scalarAt_apply O 4 slices_S16x8192_S1x1_4_0 (4 : Fin 16) rfl,
    scalarAt_apply O 12 slices_S16x8192_S1x1_12_0 (12 : Fin 16) rfl, hO4, hO12,
    EReal.coe_add, EReal.coe_add, coe_finset_sum]
  refine congrArg (_ + ·) (Finset.sum_congr rfl fun j _ => ?_)
  rw [mulf_apply, addf_apply, colVec_apply,
    rowAt_apply O 0 slices_S16x8192_S1x8192_0_0 (0 : Fin 16) rfl,
    rowAt_apply O 8 slices_S16x8192_S1x8192_8_0 (8 : Fin 16) rfl, hs, hO0, hO8,
    EReal.coe_mul, EReal.coe_add]

end Cert.Pairwise.HostSide

end
-- ==== Proof.AccumSpec.lean ====
/-
  The accumulation over the 64 grid points, over the reals: each half (points 0..31, 32..63) restarts from zero at
  its first point and then adds one tile's contribution per point. `colAcc n` and `scalAcc n` are what row 0 and
  entry (4, 0) of the running block hold after point n. Tiles are indexed by naturals here (zero past the 64th)
  so that the recursion is on the point's number.
-/
import proofs.«149991_j5892695130791_2_alg».proof.Proof.Spec

namespace Cert.Pairwise

variable (y : Fin 8192 → Fin 32 → ℝ) (w : Fin 8192 → Fin 8192 → ℝ)

/-- Tile `t`'s column sums, for a natural `t` (zero past the last tile). -/
noncomputable def tcol (t : ℕ) (l : Fin 8192) : ℝ := if h : t < 64 then tileCol w ⟨t, h⟩ l else 0

/-- Tile `t`'s scalar part, for a natural `t` (zero past the last tile). -/
noncomputable def tscal (t : ℕ) : ℝ := if h : t < 64 then tileScal y w ⟨t, h⟩ else 0

/-- Row 0 of the running block after point `n`. -/
noncomputable def colAcc : ℕ → Fin 8192 → ℝ
  | 0 => fun l => 0 + tcol w 0 l
  | n + 1 => fun l => if (n + 1) % 32 = 0 then 0 + tcol w (n + 1) l else colAcc n l + tcol w (n + 1) l

/-- Entry (4, 0) of the running block after point `n`. -/
noncomputable def scalAcc : ℕ → ℝ
  | 0 => 0 + tscal y w 0
  | n + 1 => if (n + 1) % 32 = 0 then 0 + tscal y w (n + 1) else scalAcc n + tscal y w (n + 1)

end Cert.Pairwise
-- ==== Proof.StateValue.lean ====
/-
  What the accumulator block and the scratch hold after each point, at the exact-real instance, when every input entry is
  a real: row 0 of the block is the running column sum, entry (4, 0) the running scalar part (both restarting at the
  first point of a half), and the scratch is Y itself (rounding to bf16 is the identity on exact reals).
-/
import proofs.«149991_j5892695130791_2_alg».proof.Proof.BodyData
import proofs.«149991_j5892695130791_2_alg».proof.Proof.StepScal
import proofs.«149991_j5892695130791_2_alg».proof.Proof.StepCols
import proofs.«149991_j5892695130791_2_alg».proof.Proof.BlockReads
import proofs.«149991_j5892695130791_2_alg».proof.Proof.HostSide
import proofs.«149991_j5892695130791_2_alg».proof.Proof.AccumSpec

set_option maxRecDepth 16384

noncomputable section

namespace Cert.Pairwise.StateValue

open Cert.KernelIdeal Cert.KernelIdeal.Gen Cert.KernelIdeal.Hand
open Idealize.ShloMosaic Idealize.ShloMosaic.TcCoe Idealize.SL.Sem
open Idealize.ShloMosaic.ValueIdx
open Cert.Pairwise

variable (m : (ℓ : Loc nD τ sig) → Buf (Elt Ideal) ℓ) (c : Dev nD) (y : Fin 8192 → Fin 32 → ℝ) (w : Fin 8192 → Fin 8192 → ℝ)

/-- A grid point's number as a tile number. -/
abbrev tileIx (t : Fin cfg0.N) : Fin 64 := ⟨t.val, by have := t.isLt; have : cfg0.N = 64 := N_0; omega⟩

theorem tcol_at (t : Fin cfg0.N) (l : Fin 8192) : tcol w t.val l = ∑ r : Fin 128, w (tileRow (tileIx t) r) l := by
  unfold tcol; rw [dif_pos (tileIx t).isLt]; rfl

theorem tscal_at (t : Fin cfg0.N) : tscal y w t.val = tileScal y w (tileIx t) := by
  unfold tscal; rw [dif_pos (tileIx t).isLt]

/-- The recursion of `colAcc` and `scalAcc`, case by case. -/
theorem colAcc_zero (l : Fin 8192) : colAcc w 0 l = 0 + tcol w 0 l := rfl
theorem colAcc_first (n : ℕ) (h : (n + 1) % 32 = 0) (l : Fin 8192) : colAcc w (n + 1) l = 0 + tcol w (n + 1) l := by
  show (if (n + 1) % 32 = 0 then _ else _) = _; rw [if_pos h]
theorem colAcc_later (n : ℕ) (h : ¬(n + 1) % 32 = 0) (l : Fin 8192) : colAcc w (n + 1) l = colAcc w n l + tcol w (n + 1) l := by
  show (if (n + 1) % 32 = 0 then _ else _) = _; rw [if_neg h]
theorem scalAcc_zero : scalAcc y w 0 = 0 + tscal y w 0 := rfl
theorem scalAcc_first (n : ℕ) (h : (n + 1) % 32 = 0) : scalAcc y w (n + 1) = 0 + tscal y w (n + 1) := by
  show (if (n + 1) % 32 = 0 then _ else _) = _; rw [if_pos h]
theorem scalAcc_later (n : ℕ) (h : ¬(n + 1) % 32 = 0) : scalAcc y w (n + 1) = scalAcc y w n + tscal y w (n + 1) := by
  show (if (n + 1) % 32 = 0 then _ else _) = _; rw [if_neg h]

section
variable (hy : ∀ (i : Fin 8192) (k : Fin 32), m ((c : Thread nD τ).loc main_arg0) (ix2 i k) = ((y i k : ℝ) : EReal))
  (hw : ∀ (i j : Fin 8192), m ((c : Thread nD τ).loc main_arg1) (ix2 i j) = ((w i j : ℝ) : EReal))
include hy hw

/-- The tile of W a point sees. -/
theorem tileW (t : Fin cfg0.N) (r : Fin 128) (l : Fin 8192) : iblk m c 0 t (ix2 r l) = ((w (tileRow (tileIx t) r) l : ℝ) : EReal) :=
  (BlockReads.iblk0_apply m c t r l).trans ((congrFun (V_main_arg1 m c) _).trans (hw _ _))

/-- All of Y, as every point sees it. -/
theorem allY (t : Fin cfg0.N) (l : Fin 8192) (k : Fin 32) : iblk m c 1 t (ix2 l k) = ((y l k : ℝ) : EReal) :=
  (BlockReads.iblk1_apply m c t l k).trans ((congrFun (V_main_arg0 m c) _).trans (hy _ _))

/-- The tile's rows of Y. -/
theorem tileY (t : Fin cfg0.N) (r : Fin 128) (k : Fin 32) :
    View.ld (iblk m c 1 t) (RYt (grid0.coords t)) (ix2 r k) = ((y (tileRow (tileIx t) r) k : ℝ) : EReal) :=
  (StepScal.ld_tileY (iblk m c 1 t) t r k).trans (allY m c y w hy hw t _ k)

/-- The tile's squared norms. -/
theorem tileS (t : Fin cfg0.N) (r : Fin 128) :
    View.ld (iblk m c 2 t) (RSt (grid0.coords t)) (ix2 r (0 : Fin 1)) = ((sqn y (tileRow (tileIx t) r) : ℝ) : EReal) :=
  (StepScal.ld_tileS (iblk m c 2 t) t r).trans ((BlockReads.iblk2_apply m c t _).trans
    ((congrFun (HostSide.head_v2 m c) _).trans (HostSide.sqCol_apply y _ hy _)))

/-- One point's effect, on reals: row 0 gains the tile's column sums, entry (4, 0) the tile's scalar part. -/
theorem step_facts (n : ℕ) (hn : n < cfg0.N) (xo : Vec Ideal S8x8192 .f32) (ys : Vec Ideal S8192x32 .bf16) (a : Fin 8192 → ℝ) (b : ℝ)
    (ho0 : ∀ l : Fin 8192, xo (ix2 (0 : Fin 8) l) = ((a l : ℝ) : EReal)) (ho4 : xo (ix2 (4 : Fin 8) (0 : Fin 8192)) = ((b : ℝ) : EReal))
    (hs : ∀ (l : Fin 8192) (k : Fin 32), ys (ix2 l k) = ((y l k : ℝ) : EReal)) :
    (∀ l : Fin 8192, step (grid0.coords ⟨n, hn⟩) (iblk m c 0 ⟨n, hn⟩) (iblk m c 1 ⟨n, hn⟩) (iblk m c 2 ⟨n, hn⟩) xo ys (ix2 (0 : Fin 8) l) = ((a l + tcol w n l : ℝ) : EReal))
    ∧ step (grid0.coords ⟨n, hn⟩) (iblk m c 0 ⟨n, hn⟩) (iblk m c 1 ⟨n, hn⟩) (iblk m c 2 ⟨n, hn⟩) xo ys (ix2 (4 : Fin 8) (0 : Fin 8192)) = ((b + tscal y w n : ℝ) : EReal) := by
  generalize ht : (⟨n, hn⟩ : Fin cfg0.N) = t
  have hv : n = t.val := by rw [← ht]
  subst hv
  refine ⟨fun l => ?_, ?_⟩
  · rw [tcol_at]
    exact StepCols.step_row0 (grid0.coords t) (iblk m c 0 t) (iblk m c 1 t) (iblk m c 2 t) xo ys
      (fun r l => w (tileRow (tileIx t) r) l) a (tileW m c y w hy hw t) ho0 l
  · rw [tscal_at]
    exact StepScal.step_e40 (grid0.coords t) (iblk m c 0 t) (iblk m c 1 t) (iblk m c 2 t) xo ys
      (fun r k => y (tileRow (tileIx t) r) k) (fun r => sqn y (tileRow (tileIx t) r)) (fun r l => w (tileRow (tileIx t) r) l) y b
      (tileY m c y w hy hw t) (tileS m c y w hy hw t) (tileW m c y w hy hw t) hs ho4

/-- A first point of a half: from the zero block and the fresh copy. -/
theorem first_facts (n : ℕ) (hn : n < cfg0.N) :
    (∀ l : Fin 8192, step (grid0.coords ⟨n, hn⟩) (iblk m c 0 ⟨n, hn⟩) (iblk m c 1 ⟨n, hn⟩) (iblk m c 2 ⟨n, hn⟩) zeroBlock (freshCopy (iblk m c 1 ⟨n, hn⟩)) (ix2 (0 : Fin 8) l)
        = ((0 + tcol w n l : ℝ) : EReal))
    ∧ step (grid0.coords ⟨n, hn⟩) (iblk m c 0 ⟨n, hn⟩) (iblk m c 1 ⟨n, hn⟩) (iblk m c 2 ⟨n, hn⟩) zeroBlock (freshCopy (iblk m c 1 ⟨n, hn⟩)) (ix2 (4 : Fin 8) (0 : Fin 8192))
        = ((0 + tscal y w n : ℝ) : EReal)
    ∧ (∀ (l : Fin 8192) (k : Fin 32), freshCopy (iblk m c 1 ⟨n, hn⟩) (ix2 l k) = ((y l k : ℝ) : EReal)) := by
  have hfresh : ∀ (l : Fin 8192) (k : Fin 32), freshCopy (iblk m c 1 ⟨n, hn⟩) (ix2 l k) = ((y l k : ℝ) : EReal) :=
    fun l k => StepCols.freshCopy_apply (iblk m c 1 ⟨n, hn⟩) l k (y l k) (allY m c y w hy hw ⟨n, hn⟩ l k)
  have hf := step_facts m c y w hy hw n hn zeroBlock (freshCopy (iblk m c 1 ⟨n, hn⟩)) (fun _ => (0 : ℝ)) (0 : ℝ)
    (fun l => StepCols.zeroBlock_apply _) (StepCols.zeroBlock_apply _) hfresh
  exact ⟨fun l => hf.1 l, hf.2, hfresh⟩

set_option maxHeartbeats 800000 in
/-- After every point: row 0 is `colAcc`, entry (4, 0) is `scalAcc`, the scratch is Y. -/
theorem state_inv : ∀ (n : ℕ) (hn : n < cfg0.N),
    (∀ l : Fin 8192, (stateAt m c n hn).1 (ix2 (0 : Fin 8) l) = ((colAcc w n l : ℝ) : EReal))
    ∧ (stateAt m c n hn).1 (ix2 (4 : Fin 8) (0 : Fin 8192)) = ((scalAcc y w n : ℝ) : EReal)
    ∧ (∀ (l : Fin 8192) (k : Fin 32), (stateAt m c n hn).2 (ix2 l k) = ((y l k : ℝ) : EReal))
  | 0, hn => by
    have hf := first_facts m c y w hy hw 0 hn
    rw [show stateAt m c 0 hn = _ from stateAt_first m c ⟨0, hn⟩ (Nat.zero_mod _)]
    dsimp only
    refine ⟨fun l => ?_, ?_, hf.2.2⟩
    · rw [colAcc_zero]; exact hf.1 l
    · rw [scalAcc_zero]; exact hf.2.1
  | n + 1, hn => by
    have ih := state_inv n (Nat.lt_of_succ_lt hn)
    by_cases h : (n + 1) % 32 = 0
    · have hf := first_facts m c y w hy hw (n + 1) hn
      rw [show stateAt m c (n + 1) hn = _ from stateAt_first m c ⟨n + 1, hn⟩ h]
      dsimp only
      refine ⟨fun l => ?_, ?_, hf.2.2⟩
      · rw [colAcc_first w n h]; exact hf.1 l
      · rw [scalAcc_first y w n h]; exact hf.2.1
    · have hf := step_facts m c y w hy hw (n + 1) hn (stateAt m c n (Nat.lt_of_succ_lt hn)).1 (stateAt m c n (Nat.lt_of_succ_lt hn)).2
        (colAcc w n) (scalAcc y w n) ih.1 ih.2.1 ih.2.2
      rw [show stateAt m c (n + 1) hn
          = (step (grid0.coords ⟨n + 1, hn⟩) (iblk m c 0 ⟨n + 1, hn⟩) (iblk m c 1 ⟨n + 1, hn⟩) (iblk m c 2 ⟨n + 1, hn⟩)
              (stateAt m c n (Nat.lt_of_succ_lt hn)).1 (stateAt m c n (Nat.lt_of_succ_lt hn)).2,
            (stateAt m c n (Nat.lt_of_succ_lt hn)).2) from stateAt_later m c ⟨n + 1, hn⟩ h]
      dsimp only
      refine ⟨fun l => ?_, ?_, ih.2.2⟩
      · rw [colAcc_later w n h]; exact hf.1 l
      · rw [scalAcc_later y w n h]; exact hf.2

end

end Cert.Pairwise.StateValue

end
-- ==== Proof.OutReads.lean ====
import proofs.«149991_j5892695130791_2_alg».proof.Proof.Gen.KernelIdeal.Frame
import Idealize.ShloMosaic.Lib.Pipeline.Value
import Idealize.ShloMosaic.Lib.ValueIdx

noncomputable section

namespace Cert.Pairwise.OutReads

open Cert.KernelIdeal Cert.KernelIdeal.Gen
open Idealize.ShloMosaic Idealize.ShloMosaic.TcCoe
open Idealize.SL Idealize.SL.RA Idealize.SL.Sem
open Idealize.ShloMosaic.Rounds
open Idealize.ShloMosaic.Pipeline (Dat Cfg Window)
open Idealize.ShloMosaic.ValueIdx

variable {F : FTy → Type} [FloatOps F]

/-! ## Where the result's blocks sit, and what the result array holds after the run

The result array is [16, 8192], written in blocks of 8 rows: at point `t` of the 64 the block is block row `t / 32` — rows
0 … 7 for the first 32 points, rows 8 … 15 for the last 32 — and it is written back after points 31 and 63 only. Those two
blocks share no row, so after the run row `8 (t / 32) + r` of the array is row `r` of what point `t` left, for `t` either of
the two. -/

/-- The result's block index at point `t` is `(t / 32, 0)`. -/
theorem index0_3 : ∀ t : Fin cfg0.N, win0_3.index t (0 : Fin 2) = t.val / 32 ∧ win0_3.index t (1 : Fin 2) = 0 :=
  (by decide +kernel : ∀ t : Fin grid0.N, win0_3.index t (0 : Fin 2) = t.val / 32 ∧ win0_3.index t (1 : Fin 2) = 0)

/-- Two distinct points that write the result back write disjoint blocks: both are ≡ 31 (mod 32), so they differ in
    `t / 32`, the block row. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (by
    have h0 : win0_3.index t (0 : Fin 2) = win0_3.index t' (0 : Fin 2) := congrFun h (0 : Fin 2)
    have e := (index0_3 t).1
    have e' := (index0_3 t').1
    have f := (flush0_3 t).mp hf
    have f' := (flush0_3 t').mp hf'
    exact Fin.ext (by omega))

/-- After the run, the result array at row `8 (t / 32) + r`, column `l`, is what point `t` left in its block at `(r, l)`,
    for a point `t` that writes the block back. -/
theorem out_apply {c : Dev nD} (dat : Dat τ (Elt F) Unit ℕ (UR sig nD τ) ℕ cfg0 c) (t : Fin cfg0.N)
    (hf : (cfg0.win 3).flush t = true) (r : Fin 8) (l : Fin 8192) :
    dat.arrAt 3 cfg0.N (ValueIdx.ix2 (⟨8 * (t.val / 32) + r.val, by
        have := t.isLt; have : cfg0.N = 64 := N_0; have := r.isLt; omega⟩ : Fin 16) l)
      = dat.after 3 t (ValueIdx.ix2 r l) := by
  have h := dat.arrAt_emb_eq_flushed 3 disjoint3 t hf (ix2 r l)
  obtain ⟨e0, e1⟩ := index0_3 t
  refine Eq.trans (congrArg (dat.arrAt 3 cfg0.N) (funext fun a => Fin.ext ?_)) (h.trans rfl)
  match a with
  | ⟨0, _⟩ => show 8 * (t.val / 32) + r.val = win0_3.index t (0 : Fin 2) * 8 + 1 * r.val; omega
  | ⟨1, _⟩ => show l.val = win0_3.index t (1 : Fin 2) * 8192 + 1 * l.val; omega

/-- Point 31: the last of the first half. -/
abbrev p31 : Fin cfg0.N := ⟨31, by have : cfg0.N = 64 := N_0; omega⟩
/-- Point 63: the last of the second half. -/
abbrev p63 : Fin cfg0.N := ⟨63, by have : cfg0.N = 64 := N_0; omega⟩

theorem flush_p31 : (cfg0.win 3).flush p31 = true := (flush0_3 p31).mpr (by decide)
theorem flush_p63 : (cfg0.win 3).flush p63 = true := (flush0_3 p63).mpr (by decide)

/-- Row 0 of the result is row 0 of what point 31 left. -/
theorem out_row0 {c : Dev nD} (dat : Dat τ (Elt F) Unit ℕ (UR sig nD τ) ℕ cfg0 c) (l : Fin 8192) :
    dat.arrAt 3 cfg0.N (ValueIdx.ix2 (0 : Fin 16) l) = dat.after 3 p31 (ValueIdx.ix2 (0 : Fin 8) l) :=
  out_apply dat p31 flush_p31 (0 : Fin 8) l

/-- Row 8 of the result is row 0 of what point 63 left. -/
theorem out_row8 {c : Dev nD} (dat : Dat τ (Elt F) Unit ℕ (UR sig nD τ) ℕ cfg0 c) (l : Fin 8192) :
    dat.arrAt 3 cfg0.N (ValueIdx.ix2 (8 : Fin 16) l) = dat.after 3 p63 (ValueIdx.ix2 (0 : Fin 8) l) :=
  out_apply dat p63 flush_p63 (0 : Fin 8) l

/-- Entry (4, 0) of the result is entry (4, 0) of what point 31 left. -/
theorem out_e4 {c : Dev nD} (dat : Dat τ (Elt F) Unit ℕ (UR sig nD τ) ℕ cfg0 c) :
    dat.arrAt 3 cfg0.N (ValueIdx.ix2 (4 : Fin 16) (0 : Fin 8192)) = dat.after 3 p31 (ValueIdx.ix2 (4 : Fin 8) (0 : Fin 8192)) :=
  out_apply dat p31 flush_p31 (4 : Fin 8) (0 : Fin 8192)

/-- Entry (12, 0) of the result is entry (4, 0) of what point 63 left. -/
theorem out_e12 {c : Dev nD} (dat : Dat τ (Elt F) Unit ℕ (UR sig nD τ) ℕ cfg0 c) :
    dat.arrAt 3 cfg0.N (ValueIdx.ix2 (12 : Fin 16) (0 : Fin 8192)) = dat.after 3 p63 (ValueIdx.ix2 (4 : Fin 8) (0 : Fin 8192)) :=
  out_apply dat p63 flush_p63 (4 : Fin 8) (0 : Fin 8192)

end Cert.Pairwise.OutReads

end
-- ==== Proof.Tail.lean ====
/-
  The program's result read off the frame run: the host lines after the region applied to the result array the
  region leaves and to the column of squared norms.
-/
import proofs.«149991_j5892695130791_2_alg».proof.Proof.BodyData
import proofs.«149991_j5892695130791_2_alg».proof.Proof.HostSide

set_option maxRecDepth 16384

noncomputable section

namespace Cert.Pairwise.Tail

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The result array after the region. -/
abbrev outArr (c : Dev nD) := (dats m 0 c).arrAt 3 cfg0.N

/-- The result buffer after the whole program: the division by 8192 of the tail's sum over the result array and the
    squared norms' column. -/
theorem result_v18 (c : Dev nD) :
    Pipeline.afterTail₀ cfgs (dats m) 0 (V0 m) [hostOps1] c main_v18
      = Host.divf (F := Ideal) (HostSide.tailSum (outArr m c) (V m c main_v2)) (constant (F := Ideal) S_ .f32 0x46000000#32) := by
  unfold Pipeline.afterTail₀
  simp only [List.flatten_cons, List.flatten_nil, List.append_nil]
  rw [HostSide.tail_v18]
  have e3 : Pipeline.withArrays (cfgs 0).spec c (V0 m c) (fun w => (dats m 0 c).arrAt w (cfgs 0).N) (Proc.devRef .tc main_v3) = outArr m c :=
    Pipeline.withArrays_arr spec0 launch0.win.arr_inj c _ _ 3
  have e2 : Pipeline.withArrays (cfgs 0).spec c (V0 m c) (fun w => (dats m 0 c).arrAt w (cfgs 0).N) (Proc.devRef .tc main_v2) = V m c main_v2 :=
    (Pipeline.withArrays_arr spec0 launch0.win.arr_inj c _ _ 2).trans (((dats m 0 c).arrAt_in 2 rfl _).trans (A_eq m c 2))
  rw [e3, e2]

/-- The result buffer is none of the pipeline's arrays and is unscoped: the run's post speaks of it. -/
theorem v18_mem_rest : main_v18 ∈ Pipeline.restRefs sig spec0 :=
  Pipeline.mem_restRefs_of main_v18 rfl (by intro w; fin_cases w <;> decide)

end Cert.Pairwise.Tail

end
-- ==== Proof.Accum.lean ====
/-
  The running accumulation over the 64 grid points, closed: after the last point of a half, the running column
  sums and the running scalar are that half's totals.

  A running value that restarts from zero at every point whose number is a multiple of 32, and otherwise adds the
  point's contribution g n to what it held, holds at point 32 c + j (j < 32) the sum of g (32 c + jj) over
  jj <= j: induction on j, the restart giving the base case of every half (and 0 + x = x). At j = 31 this is the
  sum over the half's 32 tiles, and the natural-number tile 32 c + jj is the tile the half visits at its step jj.
-/
import proofs.«149991_j5892695130791_2_alg».proof.Proof.AccumSpec
import Mathlib.Algebra.BigOperators.Fin
import Mathlib.Algebra.BigOperators.Intervals

namespace Cert.Pairwise

open Finset

/-- A running sum that restarts from zero at every multiple of 32: at point 32 c + j (j < 32) it holds the sum of
    the contributions of the points 32 c, ..., 32 c + j. -/
theorem acc_half {α : Type*} [AddCommMonoid α] (g acc : ℕ → α) (h0 : acc 0 = 0 + g 0)
    (hs : ∀ n, acc (n + 1) = if (n + 1) % 32 = 0 then 0 + g (n + 1) else acc n + g (n + 1))
    (c j : ℕ) (hj : j < 32) : acc (32 * c + j) = ∑ jj ∈ range (j + 1), g (32 * c + jj) := by
  induction j with
  | zero =>
    rw [Finset.sum_range_one]
    cases c with
    | zero => simpa using h0
    | succ c' =>
      have e : 32 * (c' + 1) + 0 = (32 * c' + 31) + 1 := by omega
      rw [e, hs, if_pos (by omega), zero_add]
  | succ j ih =>
    have e : 32 * c + (j + 1) = (32 * c + j) + 1 := by omega
    rw [Finset.sum_range_succ, ← ih (by omega), e, hs, if_neg (by omega)]

variable (y : Fin 8192 → Fin 32 → ℝ) (w : Fin 8192 → Fin 8192 → ℝ)

/-- The natural-number tile 32 c + jj is the tile half c visits at its step jj: column sums. -/
theorem tcol_tileOf (c : Fin 2) (jj : Fin 32) (l : Fin 8192) :
    tcol w (32 * c.val + jj.val) l = tileCol w (tileOf c jj) l := by
  have hc := c.isLt
  have hjj := jj.isLt
  unfold tcol
  rw [dif_pos (show 32 * c.val + jj.val < 64 by omega)]
  rfl

/-- The natural-number tile 32 c + jj is the tile half c visits at its step jj: scalar part. -/
theorem tscal_tileOf (c : Fin 2) (jj : Fin 32) :
    tscal y w (32 * c.val + jj.val) = tileScal y w (tileOf c jj) := by
  have hc := c.isLt
  have hjj := jj.isLt
  unfold tscal
  rw [dif_pos (show 32 * c.val + jj.val < 64 by omega)]
  rfl

/-- After the last point of half c, the running column sums are the half's column sums. -/
theorem colAcc_half (c : Fin 2) (l : Fin 8192) : colAcc w (32 * c.val + 31) l = coreCol w c l := by
  refine (acc_half (fun n => tcol w n l) (fun n => colAcc w n l) rfl (fun n => rfl) c.val 31
    (by norm_num)).trans ?_
  show ∑ jj ∈ range 32, tcol w (32 * c.val + jj) l = coreCol w c l
  rw [Finset.sum_range]
  unfold coreCol
  exact Finset.sum_congr rfl fun jj _ => tcol_tileOf w c jj l

/-- After the last point of half c, the running scalar is the half's scalar part. -/
theorem scalAcc_half (c : Fin 2) : scalAcc y w (32 * c.val + 31) = coreScal y w c := by
  refine (acc_half (fun n => tscal y w n) (fun n => scalAcc y w n) rfl (fun n => rfl) c.val 31
    (by norm_num)).trans ?_
  show ∑ jj ∈ range 32, tscal y w (32 * c.val + jj) = coreScal y w c
  rw [Finset.sum_range]
  unfold coreScal
  exact Finset.sum_congr rfl fun jj _ => tscal_tileOf y w c jj

theorem colAcc_31 (w : Fin 8192 → Fin 8192 → ℝ) (l : Fin 8192) : colAcc w 31 l = coreCol w 0 l :=
  colAcc_half w 0 l

theorem colAcc_63 (w : Fin 8192 → Fin 8192 → ℝ) (l : Fin 8192) : colAcc w 63 l = coreCol w 1 l :=
  colAcc_half w 1 l

theorem scalAcc_31 (y : Fin 8192 → Fin 32 → ℝ) (w : Fin 8192 → Fin 8192 → ℝ) :
    scalAcc y w 31 = coreScal y w 0 :=
  scalAcc_half y w 0

theorem scalAcc_63 (y : Fin 8192 → Fin 32 → ℝ) (w : Fin 8192 → Fin 8192 → ℝ) :
    scalAcc y w 63 = coreScal y w 1 :=
  scalAcc_half y w 1

end Cert.Pairwise
-- ==== Proof.Algebra.lean ====
/-
  The two arrangements of the weighted sum of pairwise squared distances agree over the reals.

  * |y_i|^2 + |y_j|^2 - 2 <y_i, y_j> = sum_k (y_ik - y_jk)^2 is a sum of squares, hence nonnegative, so the
    maximum with 0 in the reference's summand is the identity.
  * Expanding, sum_ij w_ij (s_i + s_j - 2 g_ij)
      = sum_i s_i (sum_l w_il) + sum_j s_j (sum_i w_ij) - 2 sum_i sum_k y_ik (sum_l w_il y_lk).
  * Every index below 8192 = 64 * 128 is 128 t + r for exactly one tile t < 64 and row r < 128, so a sum over all
    rows is the sum over the tiles of the sums within each tile (sum_tiles); every tile below 64 = 2 * 32 is
    32 c + jj for exactly one half c < 2 and step jj < 32, so a sum over the tiles is the sum of the two halves'
    sums (sum_halves). The tiled arrangement is therefore the three whole sums above.
  * The embedding of the reals into the extended reals is additive, so it commutes with finite sums (coe_sum).
-/
import proofs.«149991_j5892695130791_2_alg».proof.Proof.Spec
import Mathlib.Tactic.Ring
import Mathlib.Tactic.Linarith
import Mathlib.Algebra.BigOperators.Fin
import Mathlib.Logic.Equiv.Fin.Basic
import Mathlib.Data.EReal.Basic

namespace Cert.Pairwise

open Finset

/-- A sum over the 8192 rows is the sum over the 64 tiles of the sums over each tile's 128 rows. -/
theorem sum_tiles {M : Type*} [AddCommMonoid M] (f : Fin 8192 → M) :
    ∑ i : Fin 8192, f i = ∑ t : Fin 64, ∑ r : Fin 128, f (tileRow t r) := by
  rw [← Fintype.sum_prod_type']
  refine (Fintype.sum_equiv (finProdFinEquiv (m := 64) (n := 128)) _ _ fun p => congrArg f (Fin.ext ?_)).symm
  show 128 * p.1.val + p.2.val = p.2.val + 128 * p.1.val
  exact Nat.add_comm _ _

/-- A sum over the 64 tiles is the sum over the first half's 32 tiles plus the sum over the second half's. -/
theorem sum_halves {M : Type*} [AddCommMonoid M] (g : Fin 64 → M) :
    ∑ t : Fin 64, g t = ∑ jj : Fin 32, g (tileOf 0 jj) + ∑ jj : Fin 32, g (tileOf 1 jj) := by
  have h : ∑ t : Fin 64, g t = ∑ c : Fin 2, ∑ jj : Fin 32, g (tileOf c jj) := by
    rw [← Fintype.sum_prod_type']
    refine (Fintype.sum_equiv (finProdFinEquiv (m := 2) (n := 32)) _ _ fun p => congrArg g (Fin.ext ?_)).symm
    show 32 * p.1.val + p.2.val = p.2.val + 32 * p.1.val
    exact Nat.add_comm _ _
  rw [h, Fin.sum_univ_two]

/-- The embedding of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

variable (y : Fin 8192 → Fin 32 → ℝ) (w : Fin 8192 → Fin 8192 → ℝ)

/-- |y_i|^2 + |y_j|^2 - 2 <y_i, y_j> is the sum of the squared coordinate differences. -/
theorem dist_eq_sum_sq (i j : Fin 8192) :
    sqn y i + sqn y j - 2 * gram y i j = ∑ k : Fin 32, (y i k - y j k) ^ 2 := by
  unfold sqn gram
  rw [Finset.mul_sum, ← Finset.sum_add_distrib, ← Finset.sum_sub_distrib]
  exact Finset.sum_congr rfl fun k _ => by ring

/-- The squared distance is nonnegative. -/
theorem dist_nonneg (i j : Fin 8192) : 0 ≤ sqn y i + sqn y j - 2 * gram y i j := by
  rw [dist_eq_sum_sq]
  exact Finset.sum_nonneg fun k _ => sq_nonneg _

/-- The reference's number, expanded into two weighted sums of squared norms and one cross term. -/
theorem refSum_expand :
    refSum y w = (∑ i : Fin 8192, sqn y i * ∑ l : Fin 8192, w i l)
      + (∑ j : Fin 8192, sqn y j * ∑ i : Fin 8192, w i j)
      - 2 * ∑ i : Fin 8192, ∑ k : Fin 32, y i k * ∑ l : Fin 8192, w i l * y l k := by
  unfold refSum
  have h1 : ∀ i j : Fin 8192, w i j * max (sqn y i + sqn y j - 2 * gram y i j) 0
      = sqn y i * w i j + sqn y j * w i j - 2 * (w i j * gram y i j) := fun i j => by
    rw [max_eq_left (dist_nonneg y i j)]; ring
  simp only [h1]
  simp only [Finset.sum_sub_distrib, Finset.sum_add_distrib]
  have hA : ∑ i : Fin 8192, ∑ j : Fin 8192, sqn y i * w i j = ∑ i : Fin 8192, sqn y i * ∑ l : Fin 8192, w i l :=
    Finset.sum_congr rfl fun i _ => (Finset.mul_sum _ _ _).symm
  have hB : ∑ i : Fin 8192, ∑ j : Fin 8192, sqn y j * w i j = ∑ j : Fin 8192, sqn y j * ∑ i : Fin 8192, w i j := by
    rw [Finset.sum_comm]
    exact Finset.sum_congr rfl fun j _ => (Finset.mul_sum _ _ _).symm
  have hC : ∑ i : Fin 8192, ∑ j : Fin 8192, 2 * (w i j * gram y i j)
      = 2 * ∑ i : Fin 8192, ∑ k : Fin 32, y i k * ∑ l : Fin 8192, w i l * y l k := by
    rw [Finset.mul_sum]
    refine Finset.sum_congr rfl fun i _ => ?_
    rw [← Finset.mul_sum]
    congr 1
    unfold gram
    simp only [Finset.mul_sum]
    rw [Finset.sum_comm]
    exact Finset.sum_congr rfl fun k _ => Finset.sum_congr rfl fun l _ => by ring
  rw [hA, hB, hC]

/-- The two halves' scalar parts together: the sum over all rows. -/
theorem coreScal_add :
    coreScal y w 0 + coreScal y w 1 = (∑ i : Fin 8192, sqn y i * ∑ l : Fin 8192, w i l)
      - 2 * ∑ i : Fin 8192, ∑ k : Fin 32, y i k * ∑ l : Fin 8192, w i l * y l k := by
  unfold coreScal
  rw [← sum_halves (fun t => tileScal y w t)]
  unfold tileScal
  rw [Finset.sum_sub_distrib, ← Finset.mul_sum,
    ← sum_tiles (fun i => sqn y i * ∑ l : Fin 8192, w i l),
    ← sum_tiles (fun i => ∑ k : Fin 32, y i k * ∑ l : Fin 8192, w i l * y l k)]

/-- The two halves' column sums together: the whole column sum. -/
theorem coreCol_add (j : Fin 8192) : coreCol w 0 j + coreCol w 1 j = ∑ i : Fin 8192, w i j := by
  unfold coreCol
  rw [← sum_halves (fun t => tileCol w t j)]
  unfold tileCol
  rw [← sum_tiles (fun i => w i j)]

/-- The tiled arrangement and the reference's arrangement are the same number. -/
theorem kerSum_eq_refSum (y : Fin 8192 → Fin 32 → ℝ) (w : Fin 8192 → Fin 8192 → ℝ) :
    kerSum y w = refSum y w := by
  rw [refSum_expand]
  unfold kerSum
  rw [coreScal_add]
  simp only [coreCol_add]
  ring

end Cert.Pairwise
-- ==== Proof.RefSide.lean ====
/-
  The reference program's total, read over the reals.

  With every input entry the coercion of a real number, each stage of the reference
  sum(W * max(sq[:,None] + sq[None,:] - 2 * Y Y^T, 0)) holds, entry by entry, the coercion of the
  corresponding real expression: the squared norms |y_i|^2, the Gram entries <y_i, y_j>, the clamped
  squared distance max(|y_i|^2 + |y_j|^2 - 2 <y_i, y_j>, 0), its product with the weight w_ij, and
  finally the sum over all pairs (i, j), which is `refSum y w`.
-/
import proofs.«149991_j5892695130791_2_alg».proof.Proof.Gen.ReferenceIdeal.Read
import proofs.«149991_j5892695130791_2_alg».proof.Proof.Spec
import Idealize.ShloMosaic.Lib.ValueIdx
import Idealize.ShloMosaic.PureOps.Ideal.Laws

noncomputable section

namespace Cert.Pairwise.RefSide

open Cert.ReferenceIdeal Cert.ReferenceIdeal.Read Idealize.ShloMosaic Idealize.ShloMosaic.ValueIdx

/-- The pattern of `2.0` denotes the real number 2. -/
theorem ofBits_two : Ideal.ofBits .f32 0x40000000#32 = ((2 : ℝ) : EReal) := by
  simp [Ideal.ofBits, Ideal.ieee, -EReal.coe_mul]; norm_num

/-- The coercion of a finite sum of reals is the sum of the coercions. -/
theorem coe_sum {ι : Type*} (s : Finset ι) (f : ι → ℝ) :
    ((∑ a ∈ s, f a : ℝ) : EReal) = ∑ a ∈ s, ((f a : ℝ) : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

section Stages

variable (y : Fin 8192 → Fin 32 → ℝ) (w : Fin 8192 → Fin 8192 → ℝ)
  (x0 : (⟨S8192x32, .f32⟩ : BufTy).Contents (Elt Ideal))
  (x1 : (⟨S8192x8192, .f32⟩ : BufTy).Contents (Elt Ideal))

/-- The squared norms: entry `i` of the row sums of the squares is |y_i|^2. -/
theorem v1_eq (h0 : ∀ (i : Fin 8192) (k : Fin 32), x0 (ix2 i k) = ((y i k : ℝ) : EReal)) (i : Fin 8192) :
    val_main_v1 (F := Ideal) x0 (ix1 i) = ((sqn y i : ℝ) : EReal) := by
  have e : ∀ k : Fin 32, idx_main_v1 (ix1 i) k = ix2 i k := fun k =>
    funext fun a => Fin.ext (by match a with | ⟨0, _⟩ => rfl | ⟨1, _⟩ => rfl)
  rw [val_main_v1_apply, val_main_cst_apply]
  simp only [val_main_v0_apply, e, h0, Ideal.ofBits_def, Ideal.ofBits_zero_f32, Ideal.mulf_def, zero_add]
  rw [sqn, coe_sum]
  simp only [EReal.coe_mul]

/-- The Gram matrix: entry `(i, j)` of `Y Y^T` is <y_i, y_j>. -/
theorem v3_eq (h0 : ∀ (i : Fin 8192) (k : Fin 32), x0 (ix2 i k) = ((y i k : ℝ) : EReal)) (i j : Fin 8192) :
    val_main_v3 (F := Ideal) x0 (ix2 i j) = ((gram y i j : ℝ) : EReal) := by
  have el : ∀ k : Fin 32, lidx_main_v3 (ix2 i j) k = ix2 i k := fun k =>
    funext fun a => Fin.ext (by match a with | ⟨0, _⟩ => rfl | ⟨1, _⟩ => rfl)
  have er : ∀ k : Fin 32, idx_main_v2 (ridx_main_v3 (ix2 i j) k) = ix2 j k := fun k =>
    funext fun a => Fin.ext (by match a with | ⟨0, _⟩ => rfl | ⟨1, _⟩ => rfl)
  rw [val_main_v3_apply]
  simp only [val_main_v2_apply, el, er, h0]
  rw [gram, coe_sum]
  simp only [EReal.coe_mul]

/-- The two broadcasts of the squared norms, added: entry `(i, j)` is |y_i|^2 + |y_j|^2. -/
theorem v8_eq (h0 : ∀ (i : Fin 8192) (k : Fin 32), x0 (ix2 i k) = ((y i k : ℝ) : EReal)) (i j : Fin 8192) :
    val_main_v8 (F := Ideal) x0 (ix2 i j) = ((sqn y i + sqn y j : ℝ) : EReal) := by
  have e6 : idx_main_v4 (idx_main_v6 (ix2 i j)) = ix1 i :=
    funext fun a => Fin.ext (by match a with | ⟨0, _⟩ => rfl)
  have e7 : idx_main_v5 (idx_main_v7 (ix2 i j)) = ix1 j :=
    funext fun a => Fin.ext (by match a with | ⟨0, _⟩ => rfl)
  rw [val_main_v8_apply, val_main_v6_apply, val_main_v7_apply, val_main_v4_apply, val_main_v5_apply, e6, e7,
    v1_eq y x0 h0, v1_eq y x0 h0, Ideal.addf_def, EReal.coe_add]

/-- The clamped squared distance: entry `(i, j)` is max(|y_i|^2 + |y_j|^2 - 2 <y_i, y_j>, 0). -/
theorem v13_eq (h0 : ∀ (i : Fin 8192) (k : Fin 32), x0 (ix2 i k) = ((y i k : ℝ) : EReal)) (i j : Fin 8192) :
    val_main_v13 (F := Ideal) x0 (ix2 i j)
      = ((max (sqn y i + sqn y j - 2 * gram y i j) 0 : ℝ) : EReal) := by
  rw [val_main_v13_apply, val_main_v11_apply, val_main_v10_apply, val_main_v12_apply, val_main_v9_apply,
    val_main_cst_0_apply, val_main_cst_1_apply, v8_eq y x0 h0, v3_eq y x0 h0]
  simp only [Ideal.ofBits_def, Ideal.ofBits_zero_f32, ofBits_two, Ideal.mulf_def, Ideal.subf_def,
    Ideal.maximumf_def]
  rw [coe_max, EReal.coe_sub, EReal.coe_mul, EReal.coe_zero]

/-- The weighted entry: entry `(i, j)` is w_ij * max(|y_i|^2 + |y_j|^2 - 2 <y_i, y_j>, 0). -/
theorem v14_eq (h0 : ∀ (i : Fin 8192) (k : Fin 32), x0 (ix2 i k) = ((y i k : ℝ) : EReal))
    (h1 : ∀ (i j : Fin 8192), x1 (ix2 i j) = ((w i j : ℝ) : EReal)) (i j : Fin 8192) :
    val_main_v14 (F := Ideal) x0 x1 (ix2 i j)
      = ((w i j * max (sqn y i + sqn y j - 2 * gram y i j) 0 : ℝ) : EReal) := by
  rw [val_main_v14_apply, h1, v13_eq y x0 h0, Ideal.mulf_def, EReal.coe_mul]

end Stages

open Idealize.ShloMosaic in
/-- The reference's total (before its division by 8192) is the coercion of `refSum y w`: the sum over every
    index of the weighted entries is the double sum over the two coordinates. -/
theorem ref_value (y : Fin 8192 → Fin 32 → ℝ) (w : Fin 8192 → Fin 8192 → ℝ)
    (x0 : (⟨Cert.ReferenceIdeal.S8192x32, .f32⟩ : BufTy).Contents (Elt Ideal))
    (x1 : (⟨Cert.ReferenceIdeal.S8192x8192, .f32⟩ : BufTy).Contents (Elt Ideal))
    (h0 : ∀ (i : Fin 8192) (k : Fin 32), x0 (ValueIdx.ix2 i k) = ((y i k : ℝ) : EReal))
    (h1 : ∀ (i j : Fin 8192), x1 (ValueIdx.ix2 i j) = ((w i j : ℝ) : EReal)) (i : Cert.ReferenceIdeal.S_.Idx) :
    Cert.ReferenceIdeal.Read.val_main_v15 (F := Ideal) x0 x1 i = ((Cert.Pairwise.refSum y w : ℝ) : EReal) := by
  rw [val_main_v15_apply, val_main_cst_2_apply, Ideal.ofBits_def, Ideal.ofBits_zero_f32, zero_add, sum_idx2]
  simp only [v14_eq y w x0 x1 h0 h1]
  rw [refSum, coe_sum]
  refine Finset.sum_congr rfl fun a _ => ?_
  rw [coe_sum]

end Cert.Pairwise.RefSide

end
-- ==== Proof.Bridge.lean ====
/-
  The bridge: with every input entry a real, the kernel's program and the reference end at the same number.

  Kernel side: the result array's row 0 and row 8 hold the two halves' column sums of W, entries (4, 0) and (12, 0) the two
  halves' scalar parts; the host lines after the region join them with the squared norms into `kerSum`, then divide by 8192.
  Reference side: the sum over all pairs of w_ij * max(|y_i|^2 + |y_j|^2 - 2 <y_i, y_j>, 0) is `refSum`, then the same division.
  `kerSum = refSum`: the clamp is the identity because the clamped number is |y_i - y_j|^2, and the rest is distributivity
  over finite sums of reals (which is where the finiteness of the inputs is used).
-/
import proofs.«149991_j5892695130791_2_alg».proof.Proof.StateValue
import proofs.«149991_j5892695130791_2_alg».proof.Proof.OutReads
import proofs.«149991_j5892695130791_2_alg».proof.Proof.Tail
import proofs.«149991_j5892695130791_2_alg».proof.Proof.Accum
import proofs.«149991_j5892695130791_2_alg».proof.Proof.Algebra
import proofs.«149991_j5892695130791_2_alg».proof.Proof.RefSide

set_option maxRecDepth 16384

noncomputable section

namespace Cert.Pairwise.Bridge

open Cert.KernelIdeal Cert.KernelIdeal.Gen Cert.KernelIdeal.Hand
open Idealize.ShloMosaic Idealize.ShloMosaic.TcCoe Idealize.SL.Sem
open Idealize.ShloMosaic.ValueIdx
open Cert.Pairwise

variable (m : (ℓ : Loc nD τ sig) → Buf (Elt Ideal) ℓ) (c : Dev nD) (y : Fin 8192 → Fin 32 → ℝ) (w : Fin 8192 → Fin 8192 → ℝ)
  (hy : ∀ (i : Fin 8192) (k : Fin 32), m ((c : Thread nD τ).loc main_arg0) (ix2 i k) = ((y i k : ℝ) : EReal))
  (hw : ∀ (i j : Fin 8192), m ((c : Thread nD τ).loc main_arg1) (ix2 i j) = ((w i j : ℝ) : EReal))
include hy hw

/-- The last points of the two halves. -/
theorem n31 : 31 < cfg0.N := by have : cfg0.N = 64 := N_0; omega
theorem n63 : 63 < cfg0.N := by have : cfg0.N = 64 := N_0; omega

/-- The tail's sum over the result array is `kerSum`. -/
theorem tail_eq (i : S_.Idx) :
    HostSide.tailSum (Tail.outArr m c) (V m c main_v2) i = ((kerSum y w : ℝ) : EReal) := by
  have h31 := StateValue.state_inv m c y w hy hw 31 (n31 m c y w hy hw)
  have h63 := StateValue.state_inv m c y w hy hw 63 (n63 m c y w hy hw)
  have hO4 : Tail.outArr m c (ix2 (4 : Fin 16) (0 : Fin 8192)) = ((scalAcc y w 31 : ℝ) : EReal) :=
    (OutReads.out_e4 (dats m 0 c)).trans ((congrFun (after3 m c ⟨31, _⟩) _).trans h31.2.1)
  have hO12 : Tail.outArr m c (ix2 (12 : Fin 16) (0 : Fin 8192)) = ((scalAcc y w 63 : ℝ) : EReal) :=
    (OutReads.out_e12 (dats m 0 c)).trans ((congrFun (after3 m c ⟨63, _⟩) _).trans h63.2.1)
  have hO0 : ∀ j : Fin 8192, Tail.outArr m c (ix2 (0 : Fin 16) j) = ((colAcc w 31 j : ℝ) : EReal) := fun j =>
    (OutReads.out_row0 (dats m 0 c) j).trans ((congrFun (after3 m c ⟨31, _⟩) _).trans (h31.1 j))
  have hO8 : ∀ j : Fin 8192, Tail.outArr m c (ix2 (8 : Fin 16) j) = ((colAcc w 63 j : ℝ) : EReal) := fun j =>
    (OutReads.out_row8 (dats m 0 c) j).trans ((congrFun (after3 m c ⟨63, _⟩) _).trans (h63.1 j))
  have hs : ∀ j : Fin 8192, V m c main_v2 (ix2 j (0 : Fin 1)) = ((sqn y j : ℝ) : EReal) := fun j =>
    (congrFun (HostSide.head_v2 m c) _).trans (HostSide.sqCol_apply y _ hy j)
  rw [HostSide.tailSum_apply _ _ (scalAcc y w 31) (scalAcc y w 63) (colAcc w 31) (colAcc w 63) (sqn y) hO4 hO12 hO0 hO8 hs i]
  simp only [scalAcc_31, scalAcc_63, colAcc_31, colAcc_63]
  rfl

/-- The kernel's result buffer: `kerSum / 8192`. -/
theorem kernel_result :
    Pipeline.afterTail₀ cfgs (dats m) 0 (V0 m) [hostOps1] c main_v18
      = Host.divf (F := Ideal) (fun _ => ((refSum y w : ℝ) : EReal)) (constant (F := Ideal) S_ .f32 0x46000000#32) := by
  rw [Tail.result_v18, ← kerSum_eq_refSum]
  exact congrArg (fun s => Host.divf (F := Ideal) s (constant (F := Ideal) S_ .f32 0x46000000#32)) (funext fun i => tail_eq m c y w hy hw i)

end Cert.Pairwise.Bridge

end
-- ==== Proof.Finite.lean ====
/-
  From the printed precondition to real-valued inputs.

  The precondition is the conjunction of two statements of the form "every entry x of the array satisfies |x| < +inf",
  read on the extended reals.  An extended real whose absolute value max x (-x) is strictly below the top element is
  neither the top nor the bottom element, hence is (the image of) a real number.  So both input arrays are entrywise
  images of real arrays y (8192 x 32) and w (8192 x 8192).
-/
import proofs.«149991_j5892695130791_2_alg».proof.Pre_finite_inputs
import Idealize.ShloMosaic.Lib.ValueIdx
import Idealize.ShloMosaic.Lib.ReduceAll
import Idealize.ShloMosaic.PureOps.Ideal
import Idealize.ShloMosaic.PureOps.Ideal.Laws

namespace Cert.Pairwise.Finite

open Idealize.ShloMosaic

/-- An extended real with max x (-x) < +inf is a real: at -inf the maximum is -(-inf) = +inf, at +inf it is +inf. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes +inf. -/
theorem ofBits_inf : Ideal.ofBits .f32 0x7F800000#32 = (⊤ : EReal) := by
  simp [Ideal.ofBits, Ideal.ieee]

/-- The elementwise test of the precondition, read back: |x| < +inf being true says x is a real. -/
theorem real_of_test (x : Ideal .f32)
    (h : FloatOps.cmpf (F := Ideal) .olt (FloatOps.hostAbsf x) (FloatOps.ofBits .f32 0x7F800000#32) = 1#1) :
    ∃ r : ℝ, x = (r : EReal) := by
  apply exists_real_of_abs_lt_top
  rw [Ideal.hostAbsf_def, Ideal.absf_def, Ideal.cmpf_def, Ideal.ofBits_def, ofBits_inf] at h
  unfold Ideal.cmp at h
  by_contra hlt
  simp [hlt] at h

/-- The rank-0 shape has one index. -/
instance : Subsingleton Cert.Pre_finite_inputs.S_.Idx := ⟨fun a b => funext fun d => d.elim0⟩

/-- One "all entries are finite" reduction that came out true: every entry of the array is a real. -/
theorem real_of_all {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] bc (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_test (x i) (Host.reduce_andi_all _ _ hr hu ValueIdx.ix0 e i)

end Cert.Pairwise.Finite

open Idealize.ShloMosaic in
theorem Cert.Pairwise.Finite.real_of_pre [Cert.Pre_finite_inputs.Facts]
    (x0 : FVec Ideal Cert.Pre_finite_inputs.S8192x32 .f32) (x1 : FVec Ideal Cert.Pre_finite_inputs.S8192x8192 .f32)
    (h : Cert.Pre_finite_inputs.fn (F := Ideal) x0 x1 = fun _ => 1#1) :
    ∃ (y : Fin 8192 → Fin 32 → ℝ) (w : Fin 8192 → Fin 8192 → ℝ),
      (∀ (i : Fin 8192) (k : Fin 32), x0 (ValueIdx.ix2 i k) = ((y i k : ℝ) : EReal)) ∧
      (∀ (i j : Fin 8192), x1 (ValueIdx.ix2 i j) = ((w i j : ℝ) : EReal)) := by
  have h0 := congrFun h ValueIdx.ix0
  dsimp only [Cert.Pre_finite_inputs.fn, andi] at h0
  obtain ⟨ha, hb⟩ := IntOp.andi_eq_one.1 h0
  have hy : ∀ (i : Fin 8192) (k : Fin 32), ∃ r : ℝ, x0 (ValueIdx.ix2 i k) = (r : EReal) :=
    fun i k => real_of_all x0 _ _ _ ha (ValueIdx.ix2 i k)
  have hw : ∀ (i j : Fin 8192), ∃ r : ℝ, x1 (ValueIdx.ix2 i j) = (r : EReal) :=
    fun i j => real_of_all x1 _ _ _ hb (ValueIdx.ix2 i j)
  choose y hy' using hy
  choose w hw' using hw
  exact ⟨y, w, hy', hw'⟩
-- ==== Proof.lean ====
/-
  A weighted sum of pairwise squared distances, two ways.

  Inputs: points y_i in R^32 (i < 8192) and weights w_ij (8192 x 8192), all finite.
  The reference forms sq_i = |y_i|^2, the Gram matrix g_ij = <y_i, y_j>, clamps sq_i + sq_j - 2 g_ij at zero, multiplies by
  w_ij, sums over all pairs and divides by 8192.
  The kernel never forms the 8192 x 8192 distance matrix. Its grid is 2 x 32: half c streams the 32 row tiles
  (128 rows each) of its half of W. Per tile it adds the tile's column sums into row 0 of an 8 x 8192 block, and
  sum_r sq_r * rowsum_r - 2 * sum_r sum_k y_rk * (W Y)_rk into entry (4, 0); the block is zeroed at the half's first
  tile and written back after its last. Host lines then add the two halves, dot the column sums with sq, add, and divide
  by 8192.

  Over exact reals the two agree: sq_i + sq_j - 2 g_ij = |y_i - y_j|^2 >= 0, so the clamp is the identity, and
    sum_ij w_ij (sq_i + sq_j - 2 g_ij) = sum_i sq_i rowsum_i + sum_j sq_j colsum_j - 2 sum_ik y_ik (W Y)_ik
  by distributivity over finite sums of reals; this is where the inputs' finiteness is used (the extended reals do not
  distribute at infinities). Rounding to bf16 is the identity at the exact instance.

  The modules: Spec / AccumSpec (the two numbers, over the reals), Algebra / Accum (they are equal),
  BodyCases / BodyData (the kernel body per control case, the running block point by point, the run of the program; KBodyCases /
  KBodyData the same text for the word-level program), PayScal / PayCols / StepScal / StepCols / BlockReads / OutReads / StateValue
  (the running block's row 0 and entry (4, 0) as reals), HostSide / Tail (the host lines), RefSide (the reference), Finite (every
  input entry is a real), Bridge (the two results are one number).
-/
import proofs.«149991_j5892695130791_2_alg».proof.Defs
import proofs.«149991_j5892695130791_2_alg».proof.Proof.Gen.Kernel
import proofs.«149991_j5892695130791_2_alg».proof.Proof.Gen.KernelIdeal
import proofs.«149991_j5892695130791_2_alg».proof.Proof.Gen.ReferenceIdeal
import proofs.«149991_j5892695130791_2_alg».proof.Proof.Gen.Pre_finite_inputs
import proofs.«149991_j5892695130791_2_alg».proof.Proof.Gen.ReferenceIdeal.Read
import proofs.«149991_j5892695130791_2_alg».proof.Proof.KBodyData
import proofs.«149991_j5892695130791_2_alg».proof.Proof.Bridge
import proofs.«149991_j5892695130791_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ

/-- So does the exact-real one. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-real kernel program is the word-level one's text read at exact reals: nothing was rewritten. -/
theorem preserves : Cert.preserves_Kernel_KernelIdeal := trivial

set_option backward.isDefEq.respectTransparency.types false in
/-- From memories agreeing on finite inputs both programs end at `refSum y w / 8192`. -/
theorem algebraic : Cert.algebraic_KernelIdeal_ReferenceIdeal := by
  intro m ρ m' ρ' hpre hagree
  choose y w hy hw using fun c : Dev Cert.KernelIdeal.nD => Cert.Pairwise.Finite.real_of_pre _ _ (hpre c)
  refine ⟨fun c => Pipeline.afterTail₀ Cert.KernelIdeal.cfgs (Cert.KernelIdeal.Hand.dats m) 0 (Cert.KernelIdeal.Gen.V0 m)
      [Cert.KernelIdeal.Gen.hostOps1] c Cert.KernelIdeal.main_v18, ?_, ?_⟩
  · refine (θ_run Cert.KernelIdeal.defs _ _).mono (fun r h c => ⟨(h c).2 _ Cert.Pairwise.Tail.v18_mem_rest, ?_, ?_⟩)
      (Cert.KernelIdeal.Hand.run_main (F := Ideal) m ρ)
    · exact ((h c).1 1).trans (((Cert.KernelIdeal.Hand.dats m 0 c).arrAt_in 1 rfl _).trans
        ((Cert.KernelIdeal.Hand.A_eq m c 1).trans (Cert.KernelIdeal.Gen.V_main_arg0 m c)))
    · exact ((h c).1 0).trans (((Cert.KernelIdeal.Hand.dats m 0 c).arrAt_in 0 rfl _).trans
        ((Cert.KernelIdeal.Hand.A_eq m c 0).trans (Cert.KernelIdeal.Gen.V_main_arg1 m c)))
  · refine (θ_run Cert.ReferenceIdeal.defs _ _).mono (fun r h c => ⟨?_, (h c).2.1, (h c).2.2⟩)
      (Cert.ReferenceIdeal.Value.run (F := Ideal) m' ρ')
    have e15 : Cert.ReferenceIdeal.Read.val_main_v15 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = fun _ => ((Cert.Pairwise.refSum (y c) (w c) : ℝ) : EReal) :=
      funext fun i => Cert.Pairwise.RefSide.ref_value (y c) (w c) _ _
        (fun i k => by rw [(hagree c).1]; exact hy c i k) (fun i j => by rw [(hagree c).2]; exact hw c i j) i
    refine (h c).1.trans ?_
    rw [Cert.ReferenceIdeal.Read.val_main_v16_eq]
    unfold Cert.ReferenceIdeal.Read.val_main_v16
    rw [e15]
    exact (Cert.Pairwise.Bridge.kernel_result m c (y c) (w c) (hy c) (hw c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
